-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x126 : Shape := ⟨2, ![131072, 126]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x1 : Shape := ⟨2, ![256, 1]⟩
abbrev S1 : Shape := ⟨1, ![1]⟩
abbrev S319x128 : Shape := ⟨2, ![319, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S131072x126 : S_.BroadcastsInDim S131072x126 (![] : Fin 0 → Fin S131072x126.rank)
  reducesTo_S131072x126_S_d0_1 : S131072x126.ReducesTo [0, 1] S_
  h_S_ : 0 < S_.numel
  bcast_S_S63x256 : S_.BroadcastsInDim S63x256 (![] : Fin 0 → Fin S63x256.rank)
  reducesTo_S63x256_S_d0_1 : S63x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S319x256 : S_.BroadcastsInDim S319x256 (![] : Fin 0 → Fin S319x256.rank)
  reducesTo_S319x256_S_d0_1 : S319x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S319x128 : S_.BroadcastsInDim S319x128 (![] : Fin 0 → Fin S319x128.rank)
  reducesTo_S319x128_S_d0_1 : S319x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part7 {F : FTy → Type} [FloatOps F] (main_v118 : IVec S_ 1) (main_v119 : FVec F S3 .f32) : IVec S_ 1 :=
  let main_cst_46 : FVec F S_ .f32 := constant S_ .f32 0x7F800000#32
  let main_v120 : FVec F S3 .f32 := broadcastInDim S3 ![] bcast_S_S3 main_cst_46
  let main_v121 : IVec S3 1 := cmpf .olt main_v119 main_v120
  let main_c_47 : IVec S_ 1 := constantI S_ 1 1#1
  let main_v122 : IVec S_ 1 := (fun x v => Host.reduce IntOp.andi x v reducesTo_S3_S_d0 h_S_) main_v121 main_c_47
  let main_v123 : IVec S_ 1 := andi main_v118 main_v122
  main_v123

def fn_part6 {F : FTy → Type} [FloatOps F] (main_arg21 : FVec F S319x128 .f32) (main_arg22 : FVec F S128 .f32) (main_arg23 : FVec F S128x3 .f32) (main_arg24 : FVec F S3 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S319x128 .f32 := Host.absf main_arg21
  let main_cst_40 : FVec F S_ .f32 := constant S_ .f32 0x7F800000#32
  let main_v105 : FVec F S319x128 .f32 := broadcastInDim S319x128 ![] bcast_S_S319x128 main_cst_40
  let main_v106 : IVec S319x128 1 := cmpf .olt main_v104 main_v105
  let main_c_41 : IVec S_ 1 := constantI S_ 1 1#1
  let main_v107 : IVec S_ 1 := (fun x v => Host.reduce IntOp.andi x v reducesTo_S319x128_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x3 .f32 := Host.absf main_arg23
  let main_cst_44 : FVec F S_ .f32 := constant S_ .f32 0x7F800000#32
  let main_v115 : FVec F S128x3 .f32 := broadcastInDim S128x3 ![] bcast_S_S128x3 main_cst_44
  let main_v116 : IVec S128x3 1 := cmpf .olt main_v114 main_v115
  let main_c_45 : IVec S_ 1 := constantI S_ 1 1#1
  let main_v117 : IVec S_ 1 := (fun x v => Host.reduce IntOp.andi x v reducesTo_S128x3_S_d0_1 h_S_) main_v116 main_c_45
  let main_v118 : IVec S_ 1 := andi main_v113 main_v117
  let main_v119 : FVec F S3 .f32 := Host.absf main_arg24
  fn_part7 (F := F) main_v118 main_v119

def fn_part5 {F : FTy → Type} [FloatOps F] (main_arg18 : FVec F S256 .f32) (main_arg19 : FVec F S256x1 .f32) (main_arg20 : FVec F S1 .f32) (main_arg21 : FVec F S319x128 .f32) (main_arg22 : FVec F S128 .f32) (main_arg23 : FVec F S128x3 .f32) (main_arg24 : FVec F S3 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x1 .f32 := Host.absf main_arg19
  let main_cst_36 : FVec F S_ .f32 := constant S_ .f32 0x7F800000#32
  let main_v95 : FVec F S256x1 .f32 := broadcastInDim S256x1 ![] bcast_S_S256x1 main_cst_36
  let main_v96 : IVec S256x1 1 := cmpf .olt main_v94 main_v95
  let main_c_37 : IVec S_ 1 := constantI S_ 1 1#1
  let main_v97 : IVec S_ 1 := (fun x v => Host.reduce IntOp.andi x v reducesTo_S256x1_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S256 .f32) (main_arg15 : FVec F S256x256 .f32) (main_arg16 : FVec F S256 .f32) (main_arg17 : FVec F S256x256 .f32) (main_arg18 : FVec F S256 .f32) (main_arg19 : FVec F S256x1 .f32) (main_arg20 : FVec F S1 .f32) (main_arg21 : FVec F S319x128 .f32) (main_arg22 : FVec F S128 .f32) (main_arg23 : FVec F S128x3 .f32) (main_arg24 : FVec F S3 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S319x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x1 .f32) (main_arg20 : FVec F S1 .f32) (main_arg21 : FVec F S319x128 .f32) (main_arg22 : FVec F S128 .f32) (main_arg23 : FVec F S128x3 .f32) (main_arg24 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S319x256 .f32 := Host.absf main_arg11
  let main_cst_20 : FVec F S_ .f32 := constant S_ .f32 0x7F800000#32
  let main_v55 : FVec F S319x256 .f32 := broadcastInDim S319x256 ![] bcast_S_S319x256 main_cst_20
  let main_v56 : IVec S319x256 1 := cmpf .olt main_v54 main_v55
  let main_c_21 : IVec S_ 1 := constantI S_ 1 1#1
  let main_v57 : IVec S_ 1 := (fun x v => Host.reduce IntOp.andi x v reducesTo_S319x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S319x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x1 .f32) (main_arg20 : FVec F S1 .f32) (main_arg21 : FVec F S319x128 .f32) (main_arg22 : FVec F S128 .f32) (main_arg23 : FVec F S128x3 .f32) (main_arg24 : FVec F S3 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S319x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x1 .f32) (main_arg20 : FVec F S1 .f32) (main_arg21 : FVec F S319x128 .f32) (main_arg22 : FVec F S128 .f32) (main_arg23 : FVec F S128x3 .f32) (main_arg24 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S131072x126 .f32) (main_arg1 : FVec F S63x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S319x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x1 .f32) (main_arg20 : FVec F S1 .f32) (main_arg21 : FVec F S319x128 .f32) (main_arg22 : FVec F S128 .f32) (main_arg23 : FVec F S128x3 .f32) (main_arg24 : FVec F S3 .f32) : IVec S_ 1 :=
  let main_v0 : FVec F S131072x126 .f32 := Host.absf main_arg0
  let main_cst : FVec F S_ .f32 := constant S_ .f32 0x7F800000#32
  let main_v1 : FVec F S131072x126 .f32 := broadcastInDim S131072x126 ![] bcast_S_S131072x126 main_cst
  let main_v2 : IVec S131072x126 1 := cmpf .olt main_v0 main_v1
  let main_c : IVec S_ 1 := constantI S_ 1 1#1
  let main_v3 : IVec S_ 1 := (fun x v => Host.reduce IntOp.andi x v reducesTo_S131072x126_S_d0_1 h_S_) main_v2 main_c
  let main_v4 : FVec F S63x256 .f32 := Host.absf main_arg1
  let main_cst_0 : FVec F S_ .f32 := constant S_ .f32 0x7F800000#32
  let main_v5 : FVec F S63x256 .f32 := broadcastInDim S63x256 ![] bcast_S_S63x256 main_cst_0
  let main_v6 : IVec S63x256 1 := cmpf .olt main_v4 main_v5
  let main_c_1 : IVec S_ 1 := constantI S_ 1 1#1
  let main_v7 : IVec S_ 1 := (fun x v => Host.reduce IntOp.andi x v reducesTo_S63x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S131072x126 : Shape := ⟨2, ![131072, 126]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x1 : Shape := ⟨2, ![256, 1]⟩
abbrev S1 : Shape := ⟨1, ![1]⟩
abbrev S319x128 : Shape := ⟨2, ![319, 128]⟩
abbrev S128 : Shape := ⟨1, ![128]⟩
abbrev S128x3 : Shape := ⟨2, ![128, 3]⟩
abbrev S3 : Shape := ⟨1, ![3]⟩
abbrev S131072x63 : Shape := ⟨2, ![131072, 63]⟩
abbrev S256x128 : Shape := ⟨2, ![256, 128]⟩
abbrev S63x128 : Shape := ⟨2, ![63, 128]⟩
abbrev S1x256 : Shape := ⟨2, ![1, 256]⟩
abbrev S3x128 : Shape := ⟨2, ![3, 128]⟩
abbrev S1x1 : Shape := ⟨2, ![1, 1]⟩
abbrev S1x128 : Shape := ⟨2, ![1, 128]⟩
abbrev S1x3 : Shape := ⟨2, ![1, 3]⟩
abbrev S131072x4 : Shape := ⟨2, ![131072, 4]⟩
abbrev S4096x63 : Shape := ⟨2, ![4096, 63]⟩
abbrev S4096x4 : Shape := ⟨2, ![4096, 4]⟩
abbrev S4096x256 : Shape := ⟨2, ![4096, 256]⟩
abbrev S4096 : Shape := ⟨1, ![4096]⟩
abbrev S4096x1 : Shape := ⟨2, ![4096, 1]⟩
abbrev S4096x128 : Shape := ⟨2, ![4096, 128]⟩

abbrev nBuf : Space → Nat
  | .hbm => 58
  | .vmem => 32
  | .smem => 0
  | _ => 0

abbrev bufTy : (tb : Table) → Fin (tcTables nBuf tb) → BufTy
  | .hbm, ⟨0, _⟩ => ⟨S131072x126, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S319x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S256x1, .f32⟩
  | .hbm, ⟨20, _⟩ => ⟨S1, .f32⟩
  | .hbm, ⟨21, _⟩ => ⟨S319x128, .f32⟩
  | .hbm, ⟨22, _⟩ => ⟨S128, .f32⟩
  | .hbm, ⟨23, _⟩ => ⟨S128x3, .f32⟩
  | .hbm, ⟨24, _⟩ => ⟨S3, .f32⟩
  | .hbm, ⟨25, _⟩ => ⟨S131072x63, .f32⟩
  | .hbm, ⟨26, _⟩ => ⟨S131072x63, .f32⟩
  | .hbm, ⟨27, _⟩ => ⟨S63x256, .bf16⟩
  | .hbm, ⟨28, _⟩ => ⟨S256x256, .bf16⟩
  | .hbm, ⟨29, _⟩ => ⟨S256x256, .bf16⟩
  | .hbm, ⟨30, _⟩ => ⟨S256x256, .bf16⟩
  | .hbm, ⟨31, _⟩ => ⟨S256x256, .bf16⟩
  | .hbm, ⟨32, _⟩ => ⟨S63x256, .f32⟩
  | .hbm, ⟨33, _⟩ => ⟨S63x256, .bf16⟩
  | .hbm, ⟨34, _⟩ => ⟨S256x256, .f32⟩
  | .hbm, ⟨35, _⟩ => ⟨S256x256, .bf16⟩
  | .hbm, ⟨36, _⟩ => ⟨S256x256, .bf16⟩
  | .hbm, ⟨37, _⟩ => ⟨S256x256, .bf16⟩
  | .hbm, ⟨38, _⟩ => ⟨S256x256, .bf16⟩
  | .hbm, ⟨39, _⟩ => ⟨S256x128, .f32⟩
  | .hbm, ⟨40, _⟩ => ⟨S256x128, .bf16⟩
  | .hbm, ⟨41, _⟩ => ⟨S63x128, .f32⟩
  | .hbm, ⟨42, _⟩ => ⟨S63x128, .bf16⟩
  | .hbm, ⟨43, _⟩ => ⟨S1x256, .f32⟩
  | .hbm, ⟨44, _⟩ => ⟨S3x128, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x1, .f32⟩
  | .hbm, ⟨55, _⟩ => ⟨S1x128, .f32⟩
  | .hbm, ⟨56, _⟩ => ⟨S1x3, .f32⟩
  | .hbm, ⟨57, _⟩ => ⟨S131072x4, .f32⟩
  | .local _ .vmem, ⟨0, _⟩ => ⟨S4096x63, .f32⟩
  | .local _ .vmem, ⟨1, _⟩ => ⟨S4096x63, .f32⟩
  | .local _ .vmem, ⟨2, _⟩ => ⟨S4096x63, .f32⟩
  | .local _ .vmem, ⟨3, _⟩ => ⟨S4096x63, .f32⟩
  | .local _ .vmem, ⟨4, _⟩ => ⟨S63x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S63x256, .bf16⟩
  | .local _ .vmem, ⟨15, _⟩ => ⟨S256x256, .bf16⟩
  | .local _ .vmem, ⟨16, _⟩ => ⟨S1x256, .f32⟩
  | .local _ .vmem, ⟨17, _⟩ => ⟨S256x256, .bf16⟩
  | .local _ .vmem, ⟨18, _⟩ => ⟨S1x256, .f32⟩
  | .local _ .vmem, ⟨19, _⟩ => ⟨S256x256, .bf16⟩
  | .local _ .vmem, ⟨20, _⟩ => ⟨S1x256, .f32⟩
  | .local _ .vmem, ⟨21, _⟩ => ⟨S256x256, .bf16⟩
  | .local _ .vmem, ⟨22, _⟩ => ⟨S1x256, .f32⟩
  | .local _ .vmem, ⟨23, _⟩ => ⟨S1x256, .f32⟩
  | .local _ .vmem, ⟨24, _⟩ => ⟨S1x1, .f32⟩
  | .local _ .vmem, ⟨25, _⟩ => ⟨S256x128, .bf16⟩
  | .local _ .vmem, ⟨26, _⟩ => ⟨S63x128, .bf16⟩
  | .local _ .vmem, ⟨27, _⟩ => ⟨S1x128, .f32⟩
  | .local _ .vmem, ⟨28, _⟩ => ⟨S3x128, .f32⟩
  | .local _ .vmem, ⟨29, _⟩ => ⟨S1x3, .f32⟩
  | .local _ .vmem, ⟨30, _⟩ => ⟨S4096x4, .f32⟩
  | .local _ .vmem, ⟨31, _⟩ => ⟨S4096x4, .f32⟩
  | _, _ => ⟨S131072x126, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg28_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem28_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x63 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S63x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S63x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S63x128 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S3x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x3 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S4096x4 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

class Facts₀ : Prop where
  slices_S131072x126_S131072x63_0_0 : S131072x126.Slices ![0, 0] S131072x63
  slices_S131072x126_S131072x63_0_63 : S131072x126.Slices ![0, 63] S131072x63
  bitsLt_bf16_f32 : FTy.bits .bf16 < FTy.bits .f32
  slices_S319x256_S63x256_0_0 : S319x256.Slices ![0, 0] S63x256
  slices_S319x256_S256x256_63_0 : S319x256.Slices ![63, 0] S256x256
  slices_S319x128_S256x128_0_0 : S319x128.Slices ![0, 0] S256x128
  slices_S319x128_S63x128_256_0 : S319x128.Slices ![256, 0] S63x128
  shapeCasts_S256x1_S1x256 : S256x1.ShapeCasts S1x256
  transposes_S128x3_S3x128_1_0 : S128x3.Transposes [1, 0] S3x128
  shapeCasts_S256_S1x256 : S256.ShapeCasts S1x256
  shapeCasts_S1_S1x1 : S1.ShapeCasts S1x1
  shapeCasts_S128_S1x128 : S128.ShapeCasts S1x128
  shapeCasts_S3_S1x3 : S3.ShapeCasts S1x3
  inb_S4096x63_S4096x63_0_0 : ∀ a, (![0, 0] : Fin 2 → Nat) a + S4096x63.size a ≤ S4096x63.size a
  h_S4096x63 : 0 < S4096x63.numel
  shapeCasts_S4096x63_S4096x63 : S4096x63.ShapeCasts S4096x63
  inb_S63x256_S63x256_0_0 : ∀ a, (![0, 0] : Fin 2 → Nat) a + S63x256.size a ≤ S63x256.size a
  h_S63x256 : 0 < S63x256.numel
  shapeCasts_S63x256_S63x256 : S63x256.ShapeCasts S63x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S4096x256_S4096 : S4096x256.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S63x128_S63x128_0_0 : ∀ a, (![0, 0] : Fin 2 → Nat) a + S63x128.size a ≤ S63x128.size a
  h_S63x128 : 0 < S63x128.numel
  shapeCasts_S63x128_S63x128 : S63x128.ShapeCasts S63x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x3_S1x3_0_0 : ∀ a, (![0, 0] : Fin 2 → Nat) a + S1x3.size a ≤ S1x3.size a
  h_S1x3 : 0 < S1x3.numel
  shapeCasts_S1x3_S1x3 : S1x3.ShapeCasts S1x3
  slices_S3x128_o0_0_S1x128 : S3x128.Slices ![0, 0] S1x128
  reduces_S4096x128_S4096 : S4096x128.Reduces [1] S4096
  slices_S1x3_o0_0_S1x1 : S1x3.Slices ![0, 0] S1x1
  slices_S3x128_o1_0_S1x128 : S3x128.Slices ![1, 0] S1x128
  slices_S1x3_o0_1_S1x1 : S1x3.Slices ![0, 1] S1x1
  slices_S3x128_o2_0_S1x128 : S3x128.Slices ![2, 0] S1x128
  slices_S1x3_o0_2_S1x1 : S1x3.Slices ![0, 2] S1x1
  concatenates_S4096x1_S4096x1_S4096x1_S4096x1_S4096x4_d1 : Shape.Concatenates [S4096x1, S4096x1, S4096x1, S4096x1] S4096x4 1
  inb_S4096x4_S4096x4_0_0 : ∀ a, (![0, 0] : Fin 2 → Nat) a + S4096x4.size a ≤ S4096x4.size a
  h_S4096x4 : 0 < S4096x4.numel
  dot_S4096x63_S63x256_S4096x256_1_0_0_1_n_n_wf : DotDims.WF S4096x63 S63x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  dot_S4096x63_S63x128_S4096x128_1_0_0_1_n_n_wf : DotDims.WF S4096x63 S63x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x63.size a ≤ S131072x63.size a
  hwx0_0 : ∀ i : grid0.Coords, EltTy.bits .f32 = 32 ∨ (Rect.block (s := S131072x63) S4096x63.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x63.size a ≤ S131072x63.size a
  hwx0_1 : ∀ i : grid0.Coords, EltTy.bits .f32 = 32 ∨ (Rect.block (s := S131072x63) S4096x63.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S63x256.size a ≤ S63x256.size a
  hwx0_2 : ∀ i : grid0.Coords, EltTy.bits .bf16 = 32 ∨ (Rect.block (s := S63x256) S63x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S63x256.size a ≤ S63x256.size a
  hwx0_12 : ∀ i : grid0.Coords, EltTy.bits .bf16 = 32 ∨ (Rect.block (s := S63x256) S63x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .bf16 = 32 ∨ (Rect.block (s := S256x256) S256x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S256x256.size a
  hwx0_19 : ∀ i : grid0.Coords, EltTy.bits .bf16 = 32 ∨ (Rect.block (s := S256x256) S256x256.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x256.size a ≤ S1x256.size a
  hwx0_20 : ∀ i : grid0.Coords, EltTy.bits .f32 = 32 ∨ (Rect.block (s := S1x256) S1x256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x256.size a ≤ S1x256.size a
  hwx0_21 : ∀ i : grid0.Coords, EltTy.bits .f32 = 32 ∨ (Rect.block (s := S1x256) S1x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x128.size a ≤ S256x128.size a
  hwx0_23 : ∀ i : grid0.Coords, EltTy.bits .bf16 = 32 ∨ (Rect.block (s := S256x128) S256x128.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S63x128.size a ≤ S63x128.size a
  hwx0_24 : ∀ i : grid0.Coords, EltTy.bits .bf16 = 32 ∨ (Rect.block (s := S63x128) S63x128.size (cc0_transform_24 i) (hinb0_24 i)).WholeWords (EltTy.packing .bf16)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x128.size a ≤ S1x128.size a
  hwx0_25 : ∀ i : grid0.Coords, EltTy.bits .f32 = 32 ∨ (Rect.block (s := S1x128) S1x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S3x128.size a ≤ S3x128.size a
  hwx0_26 : ∀ i : grid0.Coords, EltTy.bits .f32 = 32 ∨ (Rect.block (s := S3x128) S3x128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x3.size a ≤ S1x3.size a
  hwx0_27 : ∀ i : grid0.Coords, EltTy.bits .f32 = 32 ∨ (Rect.block (s := S1x3) S1x3.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S4096x4.size a ≤ S131072x4.size a
  hwx0_28 : ∀ i : grid0.Coords, EltTy.bits .f32 = 32 ∨ (Rect.block (s := S131072x4) S4096x4.size (cc0_transform_28 i) (hinb0_28 i)).WholeWords (EltTy.packing .f32)

variable [Facts₀]

def dot_S4096x63_S63x256_S4096x256_1_0_0_1_n_n : DotDims S4096x63 S63x256 S4096x256 where
  lhsContracting := [1]
  rhsContracting := [0]
  lhsNonContracting := [0]
  rhsNonContracting := [1]
  lhsBatch := []
  rhsBatch := []
  wf := dot_S4096x63_S63x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x63_S63x128_S4096x128_1_0_0_1_n_n : DotDims S4096x63 S63x128 S4096x128 where
  lhsContracting := [1]
  rhsContracting := [0]
  lhsNonContracting := [0]
  rhsNonContracting := [1]
  lhsBatch := []
  rhsBatch := []
  wf := dot_S4096x63_S63x128_S4096x128_1_0_0_1_n_n_wf

abbrev win0_0 : Pipeline.Window sig grid0 :=
  Pipeline.Window.ofSpec (Memref.whole main_v0) S4096x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x63.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S63x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S63x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v26) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v12) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v27) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v13) S256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v28) S1x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v18) S1x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v29) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v15) S256x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v17) S63x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v30) S1x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v19) S3x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v31) S1x3.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v32) S4096x4.size cc0_transform_28 reads0_28 true false 2 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

class Facts : Prop extends Facts₀ where

variable [Facts]
-- ==== ReferenceIdeal.lean ====
abbrev S131072x126 : Shape := ⟨2, ![131072, 126]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x1 : Shape := ⟨2, ![256, 1]⟩
abbrev S1 : Shape := ⟨1, ![1]⟩
abbrev S319x128 : Shape := ⟨2, ![319, 128]⟩
abbrev S128 : Shape := ⟨1, ![128]⟩
abbrev S128x3 : Shape := ⟨2, ![128, 3]⟩
abbrev S3 : Shape := ⟨1, ![3]⟩
abbrev S131072x63 : Shape := ⟨2, ![131072, 63]⟩
abbrev S131072x256 : Shape := ⟨2, ![131072, 256]⟩
abbrev S1x256 : Shape := ⟨2, ![1, 256]⟩
abbrev S_ : Shape := ⟨0, ![]⟩
abbrev S131072x319 : Shape := ⟨2, ![131072, 319]⟩
abbrev S131072x1 : Shape := ⟨2, ![131072, 1]⟩
abbrev S1x1 : Shape := ⟨2, ![1, 1]⟩
abbrev S131072x128 : Shape := ⟨2, ![131072, 128]⟩
abbrev S1x128 : Shape := ⟨2, ![1, 128]⟩
abbrev S131072x3 : Shape := ⟨2, ![131072, 3]⟩
abbrev S1x3 : Shape := ⟨2, ![1, 3]⟩
abbrev S131072x4 : Shape := ⟨2, ![131072, 4]⟩

abbrev nBuf : Space → Nat
  | .hbm => 105
  | .vmem => 0
  | .smem => 0
  | _ => 0

abbrev bufTy : (tb : Table) → Fin (tcTables nBuf tb) → BufTy
  | .hbm, ⟨0, _⟩ => ⟨S131072x126, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S319x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S256x1, .f32⟩
  | .hbm, ⟨20, _⟩ => ⟨S1, .f32⟩
  | .hbm, ⟨21, _⟩ => ⟨S319x128, .f32⟩
  | .hbm, ⟨22, _⟩ => ⟨S128, .f32⟩
  | .hbm, ⟨23, _⟩ => ⟨S128x3, .f32⟩
  | .hbm, ⟨24, _⟩ => ⟨S3, .f32⟩
  | .hbm, ⟨25, _⟩ => ⟨S131072x63, .f32⟩
  | .hbm, ⟨26, _⟩ => ⟨S131072x63, .f32⟩
  | .hbm, ⟨27, _⟩ => ⟨S131072x256, .f32⟩
  | .hbm, ⟨28, _⟩ => ⟨S1x256, .f32⟩
  | .hbm, ⟨29, _⟩ => ⟨S131072x256, .f32⟩
  | .hbm, ⟨30, _⟩ => ⟨S131072x256, .f32⟩
  | .hbm, ⟨31, _⟩ => ⟨S_, .f32⟩
  | .hbm, ⟨32, _⟩ => ⟨S131072x256, .f32⟩
  | .hbm, ⟨33, _⟩ => ⟨S131072x256, .f32⟩
  | .hbm, ⟨34, _⟩ => ⟨S131072x256, .f32⟩
  | .hbm, ⟨35, _⟩ => ⟨S1x256, .f32⟩
  | .hbm, ⟨36, _⟩ => ⟨S131072x256, .f32⟩
  | .hbm, ⟨37, _⟩ => ⟨S131072x256, .f32⟩
  | .hbm, ⟨38, _⟩ => ⟨S_, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S1x256, .f32⟩
  | .hbm, ⟨43, _⟩ => ⟨S131072x256, .f32⟩
  | .hbm, ⟨44, _⟩ => ⟨S131072x256, .f32⟩
  | .hbm, ⟨45, _⟩ => ⟨S_, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S1x256, .f32⟩
  | .hbm, ⟨50, _⟩ => ⟨S131072x256, .f32⟩
  | .hbm, ⟨51, _⟩ => ⟨S131072x256, .f32⟩
  | .hbm, ⟨52, _⟩ => ⟨S_, .f32⟩
  | .hbm, ⟨53, _⟩ => ⟨S131072x256, .f32⟩
  | .hbm, ⟨54, _⟩ => ⟨S131072x256, .f32⟩
  | .hbm, ⟨55, _⟩ => ⟨S131072x256, .f32⟩
  | .hbm, ⟨56, _⟩ => ⟨S1x256, .f32⟩
  | .hbm, ⟨57, _⟩ => ⟨S131072x256, .f32⟩
  | .hbm, ⟨58, _⟩ => ⟨S131072x256, .f32⟩
  | .hbm, ⟨59, _⟩ => ⟨S_, .f32⟩
  | .hbm, ⟨60, _⟩ => ⟨S131072x256, .f32⟩
  | .hbm, ⟨61, _⟩ => ⟨S131072x256, .f32⟩
  | .hbm, ⟨62, _⟩ => ⟨S131072x319, .f32⟩
  | .hbm, ⟨63, _⟩ => ⟨S131072x256, .f32⟩
  | .hbm, ⟨64, _⟩ => ⟨S1x256, .f32⟩
  | .hbm, ⟨65, _⟩ => ⟨S131072x256, .f32⟩
  | .hbm, ⟨66, _⟩ => ⟨S131072x256, .f32⟩
  | .hbm, ⟨67, _⟩ => ⟨S_, .f32⟩
  | .hbm, ⟨68, _⟩ => ⟨S131072x256, .f32⟩
  | .hbm, ⟨69, _⟩ => ⟨S131072x256, .f32⟩
  | .hbm, ⟨70, _⟩ => ⟨S131072x256, .f32⟩
  | .hbm, ⟨71, _⟩ => ⟨S1x256, .f32⟩
  | .hbm, ⟨72, _⟩ => ⟨S131072x256, .f32⟩
  | .hbm, ⟨73, _⟩ => ⟨S131072x256, .f32⟩
  | .hbm, ⟨74, _⟩ => ⟨S_, .f32⟩
  | .hbm, ⟨75, _⟩ => ⟨S131072x256, .f32⟩
  | .hbm, ⟨76, _⟩ => ⟨S131072x256, .f32⟩
  | .hbm, ⟨77, _⟩ => ⟨S131072x256, .f32⟩
  | .hbm, ⟨78, _⟩ => ⟨S1x256, .f32⟩
  | .hbm, ⟨79, _⟩ => ⟨S131072x256, .f32⟩
  | .hbm, ⟨80, _⟩ => ⟨S131072x256, .f32⟩
  | .hbm, ⟨81, _⟩ => ⟨S_, .f32⟩
  | .hbm, ⟨82, _⟩ => ⟨S131072x256, .f32⟩
  | .hbm, ⟨83, _⟩ => ⟨S131072x256, .f32⟩
  | .hbm, ⟨84, _⟩ => ⟨S131072x1, .f32⟩
  | .hbm, ⟨85, _⟩ => ⟨S1x1, .f32⟩
  | .hbm, ⟨86, _⟩ => ⟨S131072x1, .f32⟩
  | .hbm, ⟨87, _⟩ => ⟨S131072x1, .f32⟩
  | .hbm, ⟨88, _⟩ => ⟨S131072x256, .f32⟩
  | .hbm, ⟨89, _⟩ => ⟨S1x256, .f32⟩
  | .hbm, ⟨90, _⟩ => ⟨S131072x256, .f32⟩
  | .hbm, ⟨91, _⟩ => ⟨S131072x256, .f32⟩
  | .hbm, ⟨92, _⟩ => ⟨S131072x319, .f32⟩
  | .hbm, ⟨93, _⟩ => ⟨S131072x128, .f32⟩
  | .hbm, ⟨94, _⟩ => ⟨S1x128, .f32⟩
  | .hbm, ⟨95, _⟩ => ⟨S131072x128, .f32⟩
  | .hbm, ⟨96, _⟩ => ⟨S131072x128, .f32⟩
  | .hbm, ⟨97, _⟩ => ⟨S_, .f32⟩
  | .hbm, ⟨98, _⟩ => ⟨S131072x128, .f32⟩
  | .hbm, ⟨99, _⟩ => ⟨S131072x128, .f32⟩
  | .hbm, ⟨100, _⟩ => ⟨S131072x3, .f32⟩
  | .hbm, ⟨101, _⟩ => ⟨S1x3, .f32⟩
  | .hbm, ⟨102, _⟩ => ⟨S131072x3, .f32⟩
  | .hbm, ⟨103, _⟩ => ⟨S131072x3, .f32⟩
  | .hbm, ⟨104, _⟩ => ⟨S131072x4, .f32⟩
  | _, _ => ⟨S131072x126, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_call0_cst : Ref sig .tc := ⟨.hbm, 31, rfl⟩
abbrev main_call0_v0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call1_cst : Ref sig .tc := ⟨.hbm, 38, rfl⟩
abbrev main_call1_v0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_call2_cst : Ref sig .tc := ⟨.hbm, 45, rfl⟩
abbrev main_call2_v0 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_call3_cst : Ref sig .tc := ⟨.hbm, 52, rfl⟩
abbrev main_call3_v0 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_call4_cst : Ref sig .tc := ⟨.hbm, 59, rfl⟩
abbrev main_call4_v0 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call5_cst : Ref sig .tc := ⟨.hbm, 67, rfl⟩
abbrev main_call5_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call6_cst : Ref sig .tc := ⟨.hbm, 74, rfl⟩
abbrev main_call6_v0 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call7_cst : Ref sig .tc := ⟨.hbm, 81, rfl⟩
abbrev main_call7_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call8_cst : Ref sig .tc := ⟨.hbm, 97, rfl⟩
abbrev main_call8_v0 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩

abbrev nD : Nat := 1
abbrev τ : Topo := Topo.v7x

variable {F : FTy → Type} [FloatOps F]

class Facts₀ : Prop where
  slices_S131072x126_S131072x63_0_0 : S131072x126.Slices ![0, 0] S131072x63
  slices_S131072x126_S131072x63_0_63 : S131072x126.Slices ![0, 63] S131072x63
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  concatenates_S131072x63_S131072x256_S131072x319_d1 : Shape.Concatenates [S131072x63, S131072x256] S131072x319 1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  concatenates_S131072x256_S131072x63_S131072x319_d1 : Shape.Concatenates [S131072x256, S131072x63] S131072x319 1
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  concatenates_S131072x3_S131072x1_S131072x4_d1 : Shape.Concatenates [S131072x3, S131072x1] S131072x4 1
  dot_S131072x63_S63x256_S131072x256_1_0_0_1_n_n_wf : DotDims.WF S131072x63 S63x256 S131072x256 [1] [0] [0] [1] [] []
  dot_S131072x256_S256x256_S131072x256_1_0_0_1_n_n_wf : DotDims.WF S131072x256 S256x256 S131072x256 [1] [0] [0] [1] [] []
  dot_S131072x319_S319x256_S131072x256_1_0_0_1_n_n_wf : DotDims.WF S131072x319 S319x256 S131072x256 [1] [0] [0] [1] [] []
  dot_S131072x256_S256x1_S131072x1_1_0_0_1_n_n_wf : DotDims.WF S131072x256 S256x1 S131072x1 [1] [0] [0] [1] [] []
  dot_S131072x319_S319x128_S131072x128_1_0_0_1_n_n_wf : DotDims.WF S131072x319 S319x128 S131072x128 [1] [0] [0] [1] [] []
  dot_S131072x128_S128x3_S131072x3_1_0_0_1_n_n_wf : DotDims.WF S131072x128 S128x3 S131072x3 [1] [0] [0] [1] [] []

variable [Facts₀]

def dot_S131072x63_S63x256_S131072x256_1_0_0_1_n_n : DotDims S131072x63 S63x256 S131072x256 where
  lhsContracting := [1]
  rhsContracting := [0]
  lhsNonContracting := [0]
  rhsNonContracting := [1]
  lhsBatch := []
  rhsBatch := []
  wf := dot_S131072x63_S63x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x319_S319x256_S131072x256_1_0_0_1_n_n : DotDims S131072x319 S319x256 S131072x256 where
  lhsContracting := [1]
  rhsContracting := [0]
  lhsNonContracting := [0]
  rhsNonContracting := [1]
  lhsBatch := []
  rhsBatch := []
  wf := dot_S131072x319_S319x256_S131072x256_1_0_0_1_n_n_wf
def dot_S131072x256_S256x1_S131072x1_1_0_0_1_n_n : DotDims S131072x256 S256x1 S131072x1 where
  lhsContracting := [1]
  rhsContracting := [0]
  lhsNonContracting := [0]
  rhsNonContracting := [1]
  lhsBatch := []
  rhsBatch := []
  wf := dot_S131072x256_S256x1_S131072x1_1_0_0_1_n_n_wf
def dot_S131072x319_S319x128_S131072x128_1_0_0_1_n_n : DotDims S131072x319 S319x128 S131072x128 where
  lhsContracting := [1]
  rhsContracting := [0]
  lhsNonContracting := [0]
  rhsNonContracting := [1]
  lhsBatch := []
  rhsBatch := []
  wf := dot_S131072x319_S319x128_S131072x128_1_0_0_1_n_n_wf
def dot_S131072x128_S128x3_S131072x3_1_0_0_1_n_n : DotDims S131072x128 S128x3 S131072x3 where
  lhsContracting := [1]
  rhsContracting := [0]
  lhsNonContracting := [0]
  rhsNonContracting := [1]
  lhsBatch := []
  rhsBatch := []
  wf := dot_S131072x128_S128x3_S131072x3_1_0_0_1_n_n_wf

class Facts : Prop extends Facts₀ where

variable [Facts]
-- ==== Proof.Spec.lean ====
/-
  The network on one row, on the extended reals.

  One row of the input holds 63 point features followed by 63 view features. The trunk is eight affine maps of width
  256, each followed by max(·, 0); the sixth reads the point features again, laid in front of the fifth map's output,
  against a 319-row weight. From the trunk's last output come the density (one affine output), and a 256-wide feature
  (affine, no max); the feature laid in front of the view features goes through one more affine map of width 128 with
  max(·, 0), and three affine outputs of that are the colour. The result row is colour (3) then density (1).

  An affine map of two vectors laid side by side is written with the weight's rows split in the same place
  (`dense2`); `dense_cat` says this is the affine map of the joined vector: a sum over A + B positions is the sum
  over the first A plus the sum over the last B, and nothing else (no finiteness is needed, only that addition of
  extended reals is associative and commutative).
-/
import Idealize.ShloMosaic.PureOps.Ideal
import Idealize.ShloMosaic.Lib.ValueIdx

noncomputable section

open scoped BigOperators

namespace Cert.Spec

open Idealize.ShloMosaic Idealize.ShloMosaic.ValueIdx

/-- An affine map of a vector: output j is Σ_l h l · W l j, plus b j. -/
def dense {K J : ℕ} (h : Fin K → EReal) (W : Fin K → Fin J → EReal) (b : Fin J → EReal) : Fin J → EReal :=
  fun j => (∑ l : Fin K, h l * W l j) + b j

/-- An affine map of two vectors, each against its own block of weight rows: output j is
    (Σ_l u l · Wu l j + Σ_l v l · Wv l j) + b j. -/
def dense2 {A B J : ℕ} (u : Fin A → EReal) (v : Fin B → EReal) (Wu : Fin A → Fin J → EReal) (Wv : Fin B → Fin J → EReal)
    (b : Fin J → EReal) : Fin J → EReal :=
  fun j => ((∑ l : Fin A, u l * Wu l j) + ∑ l : Fin B, v l * Wv l j) + b j

/-- max(·, 0), entry by entry. -/
def relu {J : ℕ} (v : Fin J → EReal) : Fin J → EReal := fun j => max (v j) 0

/-- The first A rows of a weight with n = A + B rows. -/
def topRows {A B n J : ℕ} (hn : A + B = n) (W : Fin n → Fin J → EReal) : Fin A → Fin J → EReal :=
  fun l j => W ⟨l.val, by have := l.isLt; omega⟩ j

/-- The last B rows of a weight with n = A + B rows. -/
def botRows {A B n J : ℕ} (hn : A + B = n) (W : Fin n → Fin J → EReal) : Fin B → Fin J → EReal :=
  fun l j => W ⟨A + l.val, by have := l.isLt; omega⟩ j

/-- The affine map of a vector that is u followed by v is the two-block affine map of u and v against the weight's
    first A and last B rows. -/
theorem dense_cat {A B n J : ℕ} (hn : A + B = n) (cat : Fin n → EReal) (u : Fin A → EReal) (v : Fin B → EReal)
    (W : Fin n → Fin J → EReal) (b : Fin J → EReal)
    (hu : ∀ l : Fin A, cat ⟨l.val, by have := l.isLt; omega⟩ = u l)
    (hv : ∀ l : Fin B, cat ⟨A + l.val, by have := l.isLt; omega⟩ = v l) :
    dense cat W b = dense2 u v (topRows hn W) (botRows hn W) b := by
  subst hn
  funext j
  unfold dense dense2 topRows botRows
  rw [Fin.sum_univ_add]
  refine congrArg (· + b j) ?_
  refine congrArg₂ (· + ·) (Finset.sum_congr rfl fun l _ => ?_) (Finset.sum_congr rfl fun l _ => ?_)
  · exact congrArg (· * _) (hu l)
  · exact congrArg (· * _) (hv l)

/-- The network's parameters, as matrices and vectors indexed by coordinates. -/
structure Weights where
  /-- weight of `W0`: 63 inputs, 256 outputs -/
  W0 : Fin 63 → Fin 256 → EReal
  /-- its bias -/
  b0 : Fin 256 → EReal
  /-- weight of `W1`: 256 inputs, 256 outputs -/
  W1 : Fin 256 → Fin 256 → EReal
  /-- its bias -/
  b1 : Fin 256 → EReal
  /-- weight of `W2`: 256 inputs, 256 outputs -/
  W2 : Fin 256 → Fin 256 → EReal
  /-- its bias -/
  b2 : Fin 256 → EReal
  /-- weight of `W3`: 256 inputs, 256 outputs -/
  W3 : Fin 256 → Fin 256 → EReal
  /-- its bias -/
  b3 : Fin 256 → EReal
  /-- weight of `W4`: 256 inputs, 256 outputs -/
  W4 : Fin 256 → Fin 256 → EReal
  /-- its bias -/
  b4 : Fin 256 → EReal
  /-- weight of `W5`: 319 inputs, 256 outputs -/
  W5 : Fin 319 → Fin 256 → EReal
  /-- its bias -/
  b5 : Fin 256 → EReal
  /-- weight of `W6`: 256 inputs, 256 outputs -/
  W6 : Fin 256 → Fin 256 → EReal
  /-- its bias -/
  b6 : Fin 256 → EReal
  /-- weight of `W7`: 256 inputs, 256 outputs -/
  W7 : Fin 256 → Fin 256 → EReal
  /-- its bias -/
  b7 : Fin 256 → EReal
  /-- weight of `Wf`: 256 inputs, 256 outputs -/
  Wf : Fin 256 → Fin 256 → EReal
  /-- its bias -/
  bf : Fin 256 → EReal
  /-- weight of `Wa`: 256 inputs, 1 outputs -/
  Wa : Fin 256 → Fin 1 → EReal
  /-- its bias -/
  ba : Fin 1 → EReal
  /-- weight of `Wv`: 319 inputs, 128 outputs -/
  Wv : Fin 319 → Fin 128 → EReal
  /-- its bias -/
  bv : Fin 128 → EReal
  /-- weight of `Wr`: 128 inputs, 3 outputs -/
  Wr : Fin 128 → Fin 3 → EReal
  /-- its bias -/
  br : Fin 3 → EReal

/-- The trunk after its fifth map. -/
def trunk4 (w : Weights) (pts : Fin 63 → EReal) : Fin 256 → EReal :=
  relu (dense (relu (dense (relu (dense (relu (dense (relu (dense pts w.W0 w.b0)) w.W1 w.b1)) w.W2 w.b2)) w.W3 w.b3))
    w.W4 w.b4)

/-- The trunk's last output: the sixth map reads the point features (first 63 weight rows) and the fifth map's output
    (last 256 weight rows). -/
def trunk7 (w : Weights) (pts : Fin 63 → EReal) : Fin 256 → EReal :=
  relu (dense (relu (dense (relu (dense2 pts (trunk4 w pts) (topRows (A := 63) (B := 256) rfl w.W5)
    (botRows (A := 63) (B := 256) rfl w.W5) w.b5)) w.W6 w.b6)) w.W7 w.b7)

/-- The density. -/
def alpha (w : Weights) (pts : Fin 63 → EReal) : EReal := dense (trunk7 w pts) w.Wa w.ba 0

/-- The feature vector handed to the colour branch. -/
def feature (w : Weights) (pts : Fin 63 → EReal) : Fin 256 → EReal := dense (trunk7 w pts) w.Wf w.bf

/-- The colour branch's hidden vector: the feature (first 256 weight rows) and the view features (last 63). -/
def hidden (w : Weights) (pts views : Fin 63 → EReal) : Fin 128 → EReal :=
  relu (dense2 (feature w pts) views (topRows (A := 256) (B := 63) rfl w.Wv) (botRows (A := 256) (B := 63) rfl w.Wv) w.bv)

/-- The colour. -/
def rgb (w : Weights) (pts views : Fin 63 → EReal) : Fin 3 → EReal := dense (hidden w pts views) w.Wr w.br

/-- The result row: colour, then density. -/
def out (w : Weights) (pts views : Fin 63 → EReal) : Fin 4 → EReal :=
  fun g => if h : g.val < 3 then rgb w pts views ⟨g.val, h⟩ else alpha w pts

/-- The parameters read off the argument arrays. -/
def wOfArgs (a1 : (⟨2, ![63, 256]⟩ : Shape).Idx → EReal) (a2 : (⟨1, ![256]⟩ : Shape).Idx → EReal) (a3 : (⟨2, ![256, 256]⟩ : Shape).Idx → EReal) (a4 : (⟨1, ![256]⟩ : Shape).Idx → EReal) (a5 : (⟨2, ![256, 256]⟩ : Shape).Idx → EReal) (a6 : (⟨1, ![256]⟩ : Shape).Idx → EReal) (a7 : (⟨2, ![256, 256]⟩ : Shape).Idx → EReal) (a8 : (⟨1, ![256]⟩ : Shape).Idx → EReal) (a9 : (⟨2, ![256, 256]⟩ : Shape).Idx → EReal) (a10 : (⟨1, ![256]⟩ : Shape).Idx → EReal) (a11 : (⟨2, ![319, 256]⟩ : Shape).Idx → EReal) (a12 : (⟨1, ![256]⟩ : Shape).Idx → EReal) (a13 : (⟨2, ![256, 256]⟩ : Shape).Idx → EReal) (a14 : (⟨1, ![256]⟩ : Shape).Idx → EReal) (a15 : (⟨2, ![256, 256]⟩ : Shape).Idx → EReal) (a16 : (⟨1, ![256]⟩ : Shape).Idx → EReal) (a17 : (⟨2, ![256, 256]⟩ : Shape).Idx → EReal) (a18 : (⟨1, ![256]⟩ : Shape).Idx → EReal) (a19 : (⟨2, ![256, 1]⟩ : Shape).Idx → EReal) (a20 : (⟨1, ![1]⟩ : Shape).Idx → EReal) (a21 : (⟨2, ![319, 128]⟩ : Shape).Idx → EReal) (a22 : (⟨1, ![128]⟩ : Shape).Idx → EReal) (a23 : (⟨2, ![128, 3]⟩ : Shape).Idx → EReal) (a24 : (⟨1, ![3]⟩ : Shape).Idx → EReal) : Weights where
  W0 := fun l j => a1 (ix2 l j)
  b0 := fun j => a2 (ix1 j)
  W1 := fun l j => a3 (ix2 l j)
  b1 := fun j => a4 (ix1 j)
  W2 := fun l j => a5 (ix2 l j)
  b2 := fun j => a6 (ix1 j)
  W3 := fun l j => a7 (ix2 l j)
  b3 := fun j => a8 (ix1 j)
  W4 := fun l j => a9 (ix2 l j)
  b4 := fun j => a10 (ix1 j)
  W5 := fun l j => a11 (ix2 l j)
  b5 := fun j => a12 (ix1 j)
  W6 := fun l j => a13 (ix2 l j)
  b6 := fun j => a14 (ix1 j)
  W7 := fun l j => a15 (ix2 l j)
  b7 := fun j => a16 (ix1 j)
  Wf := fun l j => a17 (ix2 l j)
  bf := fun j => a18 (ix1 j)
  Wa := fun l j => a19 (ix2 l j)
  ba := fun j => a20 (ix1 j)
  Wv := fun l j => a21 (ix2 l j)
  bv := fun j => a22 (ix1 j)
  Wr := fun l j => a23 (ix2 l j)
  br := fun j => a24 (ix1 j)

/-- Row n's point features: columns 0 … 62 of the input. -/
def ptsRow (x : (⟨2, ![131072, 126]⟩ : Shape).Idx → EReal) (n : Fin 131072) : Fin 63 → EReal :=
  fun l => x (ix2 n ⟨l.val, by have := l.isLt; omega⟩)

/-- Row n's view features: columns 63 … 125 of the input. -/
def viewsRow (x : (⟨2, ![131072, 126]⟩ : Shape).Idx → EReal) (n : Fin 131072) : Fin 63 → EReal :=
  fun l => x (ix2 n ⟨63 + l.val, by have := l.isLt; omega⟩)

/-- The whole result array: row n, column g is the network's output g on row n of the input. -/
def G (x : (⟨2, ![131072, 126]⟩ : Shape).Idx → EReal) (a1 : (⟨2, ![63, 256]⟩ : Shape).Idx → EReal) (a2 : (⟨1, ![256]⟩ : Shape).Idx → EReal) (a3 : (⟨2, ![256, 256]⟩ : Shape).Idx → EReal) (a4 : (⟨1, ![256]⟩ : Shape).Idx → EReal) (a5 : (⟨2, ![256, 256]⟩ : Shape).Idx → EReal) (a6 : (⟨1, ![256]⟩ : Shape).Idx → EReal) (a7 : (⟨2, ![256, 256]⟩ : Shape).Idx → EReal) (a8 : (⟨1, ![256]⟩ : Shape).Idx → EReal) (a9 : (⟨2, ![256, 256]⟩ : Shape).Idx → EReal) (a10 : (⟨1, ![256]⟩ : Shape).Idx → EReal) (a11 : (⟨2, ![319, 256]⟩ : Shape).Idx → EReal) (a12 : (⟨1, ![256]⟩ : Shape).Idx → EReal) (a13 : (⟨2, ![256, 256]⟩ : Shape).Idx → EReal) (a14 : (⟨1, ![256]⟩ : Shape).Idx → EReal) (a15 : (⟨2, ![256, 256]⟩ : Shape).Idx → EReal) (a16 : (⟨1, ![256]⟩ : Shape).Idx → EReal) (a17 : (⟨2, ![256, 256]⟩ : Shape).Idx → EReal) (a18 : (⟨1, ![256]⟩ : Shape).Idx → EReal) (a19 : (⟨2, ![256, 1]⟩ : Shape).Idx → EReal) (a20 : (⟨1, ![1]⟩ : Shape).Idx → EReal) (a21 : (⟨2, ![319, 128]⟩ : Shape).Idx → EReal) (a22 : (⟨1, ![128]⟩ : Shape).Idx → EReal) (a23 : (⟨2, ![128, 3]⟩ : Shape).Idx → EReal) (a24 : (⟨1, ![3]⟩ : Shape).Idx → EReal) : (⟨2, ![131072, 4]⟩ : Shape).Idx → EReal :=
  fun i => out (wOfArgs a1 a2 a3 a4 a5 a6 a7 a8 a9 a10 a11 a12 a13 a14 a15 a16 a17 a18 a19 a20 a21 a22 a23 a24) (ptsRow x (i 0)) (viewsRow x (i 0)) (i 1)

theorem G_apply (x : (⟨2, ![131072, 126]⟩ : Shape).Idx → EReal) (a1 : (⟨2, ![63, 256]⟩ : Shape).Idx → EReal) (a2 : (⟨1, ![256]⟩ : Shape).Idx → EReal) (a3 : (⟨2, ![256, 256]⟩ : Shape).Idx → EReal) (a4 : (⟨1, ![256]⟩ : Shape).Idx → EReal) (a5 : (⟨2, ![256, 256]⟩ : Shape).Idx → EReal) (a6 : (⟨1, ![256]⟩ : Shape).Idx → EReal) (a7 : (⟨2, ![256, 256]⟩ : Shape).Idx → EReal) (a8 : (⟨1, ![256]⟩ : Shape).Idx → EReal) (a9 : (⟨2, ![256, 256]⟩ : Shape).Idx → EReal) (a10 : (⟨1, ![256]⟩ : Shape).Idx → EReal) (a11 : (⟨2, ![319, 256]⟩ : Shape).Idx → EReal) (a12 : (⟨1, ![256]⟩ : Shape).Idx → EReal) (a13 : (⟨2, ![256, 256]⟩ : Shape).Idx → EReal) (a14 : (⟨1, ![256]⟩ : Shape).Idx → EReal) (a15 : (⟨2, ![256, 256]⟩ : Shape).Idx → EReal) (a16 : (⟨1, ![256]⟩ : Shape).Idx → EReal) (a17 : (⟨2, ![256, 256]⟩ : Shape).Idx → EReal) (a18 : (⟨1, ![256]⟩ : Shape).Idx → EReal) (a19 : (⟨2, ![256, 1]⟩ : Shape).Idx → EReal) (a20 : (⟨1, ![1]⟩ : Shape).Idx → EReal) (a21 : (⟨2, ![319, 128]⟩ : Shape).Idx → EReal) (a22 : (⟨1, ![128]⟩ : Shape).Idx → EReal) (a23 : (⟨2, ![128, 3]⟩ : Shape).Idx → EReal) (a24 : (⟨1, ![3]⟩ : Shape).Idx → EReal) (n : Fin 131072) (g : Fin 4) :
    G x a1 a2 a3 a4 a5 a6 a7 a8 a9 a10 a11 a12 a13 a14 a15 a16 a17 a18 a19 a20 a21 a22 a23 a24 (ix2 n g) = out (wOfArgs a1 a2 a3 a4 a5 a6 a7 a8 a9 a10 a11 a12 a13 a14 a15 a16 a17 a18 a19 a20 a21 a22 a23 a24) (ptsRow x n) (viewsRow x n) g := rfl

end Cert.Spec

end
-- ==== Proof.KerBlocks.lean ====
/-
  What each window's block holds at a grid point, entry by entry, in terms of the argument arrays.

  The call's operands are made on the host before the launch: the two column ranges of the input (points, views);
  the weights narrowed to sixteen bits (the identity on the extended reals), two of them cut in two along their rows
  first; each bias as a 1 × J row; the density weight, a 256 × 1 column, as a 1 × 256 row; the colour weight
  transposed. The grid has 32 points; the point and view windows (and the result's) move 4096 rows per point, every
  other window is its whole array at every point. So row p of the point block at point t is row 4096·t + p of the
  input's columns 0 … 62, and a weight block's entry is the weight's.
-/
import proofs.«177188_j14285061226818_2_alg».proof.Proof.KernelIdealFrameP
import proofs.«177188_j14285061226818_2_alg».proof.Proof.Spec
import Idealize.ShloMosaic.Lib.ValueLayout
import Idealize.ShloMosaic.Lib.Pipeline.Value
import Idealize.ShloMosaic.Lib.StableHlo.Run

noncomputable section

namespace Cert.KerBlocks

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ)

/-- An `[a, 1]` column cast to a `[1, a]` row reads, at `(u, i)`, the column at row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu]; omega)

/-- The array row that row p of a block at grid point t is. -/
def rowOf (t : Fin cfg0.N) (p : Fin 4096) : Fin 131072 :=
  ⟨4096 * t.val + p.val, by
    have ht := t.isLt
    have hN : cfg0.N = 32 := N_0
    have hp := p.isLt
    omega⟩

/-- The index maps of the three windows that move with the grid, decided over its 32 points: block t along the
    rows, block 0 along the columns. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_28.index t (0 : Fin 2) = t.val ∧ win0_28.index t (1 : Fin 2) = 0 :=
  (by decide +kernel : ∀ t : Fin grid0.N, _)

/-- Row p of the point block at point t. -/
theorem blk0 (c : Dev nD) (t : Fin cfg0.N) (p : Fin 4096) (l : Fin 63) :
    iblk m c 0 t (ix2 p l) = Spec.ptsRow (m ((c : Thread nD τ).loc main_arg0)) (rowOf t p) l := by
  obtain ⟨e0, e1, -, -, -, -⟩ := idx_rows t
  have hemb : ((cfg0.win 0).blk t).view.emb (ix2 p l) = ix2 (rowOf t p) l := by
    funext x; apply Fin.ext
    match x with
    | ⟨0, _⟩ => show win0_0.index t (0 : Fin 2) * 4096 + 1 * p.val = 4096 * t.val + p.val; omega
    | ⟨1, _⟩ => show win0_0.index t (1 : Fin 2) * 63 + 1 * l.val = l.val; omega
  have hV : (V m c main_v0 : S131072x63.Idx → EReal)
      = extractStridedSlice S131072x63 ![0, 0] (m ((c : Thread nD τ).loc main_arg0)) slices_S131072x126_S131072x63_0_0 := by
    dsimp only [V, hostOps0]; after_results <;> rfl
  show V m c main_v0 (((cfg0.win 0).blk t).view.emb (ix2 p l)) = _
  rw [hemb, hV]
  exact slice2_axis1_apply 0 _ _ (rowOf t p) l ⟨l.val, by have := l.isLt; omega⟩ (Nat.zero_add _).symm

/-- Row p of the view block at point t. -/
theorem blk1 (c : Dev nD) (t : Fin cfg0.N) (p : Fin 4096) (l : Fin 63) :
    iblk m c 1 t (ix2 p l) = Spec.viewsRow (m ((c : Thread nD τ).loc main_arg0)) (rowOf t p) l := by
  obtain ⟨-, -, e0, e1, -, -⟩ := idx_rows t
  have hemb : ((cfg0.win 1).blk t).view.emb (ix2 p l) = ix2 (rowOf t p) l := by
    funext x; apply Fin.ext
    match x with
    | ⟨0, _⟩ => show win0_1.index t (0 : Fin 2) * 4096 + 1 * p.val = 4096 * t.val + p.val; omega
    | ⟨1, _⟩ => show win0_1.index t (1 : Fin 2) * 63 + 1 * l.val = l.val; omega
  have hV : (V m c main_v1 : S131072x63.Idx → EReal)
      = extractStridedSlice S131072x63 ![0, 63] (m ((c : Thread nD τ).loc main_arg0)) slices_S131072x126_S131072x63_0_63 := by
    dsimp only [V, hostOps0]; after_results <;> rfl
  show V m c main_v1 (((cfg0.win 1).blk t).view.emb (ix2 p l)) = _
  rw [hemb, hV]
  exact slice2_axis1_apply 63 _ _ (rowOf t p) l ⟨63 + l.val, by have := l.isLt; omega⟩ rfl

theorem idx_whole2 : ∀ t : Fin cfg0.N, win0_2.index t (0 : Fin 2) = 0 ∧ win0_2.index t (1 : Fin 2) = 0 :=
  (by decide +kernel : ∀ t : Fin grid0.N, _)

theorem blk2 (c : Dev nD) (t : Fin cfg0.N) (p : Fin 63) (q : Fin 256) :
    iblk m c 2 t (ix2 p q) = (m ((c : Thread nD τ).loc main_arg1)) (ix2 p q) := by
  obtain ⟨e0, e1⟩ := idx_whole2 t
  have hemb : ((cfg0.win 2).blk t).view.emb (ix2 p q) = ix2 p q := by
    funext x; apply Fin.ext
    match x with
    | ⟨0, _⟩ => show win0_2.index t (0 : Fin 2) * 63 + 1 * p.val = p.val; omega
    | ⟨1, _⟩ => show win0_2.index t (1 : Fin 2) * 256 + 1 * q.val = q.val; omega
  have hV : (V m c main_v2 : S63x256.Idx → EReal) = truncf (F := Ideal) .bf16 (m ((c : Thread nD τ).loc main_arg1)) bitsLt_bf16_f32 := by
    dsimp only [V, hostOps0]; after_results <;> rfl
  show V m c main_v2 (((cfg0.win 2).blk t).view.emb (ix2 p q)) = _
  rw [hemb, hV]
  rfl

theorem idx_whole3 : ∀ t : Fin cfg0.N, win0_3.index t (0 : Fin 2) = 0 ∧ win0_3.index t (1 : Fin 2) = 0 :=
  (by decide +kernel : ∀ t : Fin grid0.N, _)

theorem blk3 (c : Dev nD) (t : Fin cfg0.N) (q : Fin 256) :
    iblk m c 3 t (ix2 (0 : Fin 1) q) = (m ((c : Thread nD τ).loc main_arg2)) (ix1 q) := by
  obtain ⟨e0, e1⟩ := idx_whole3 t
  have hemb : ((cfg0.win 3).blk t).view.emb (ix2 (0 : Fin 1) q) = ix2 (0 : Fin 1) q := by
    funext x; apply Fin.ext
    match x with
    | ⟨0, _⟩ => show win0_3.index t (0 : Fin 2) * 1 + 1 * 0 = 0; omega
    | ⟨1, _⟩ => show win0_3.index t (1 : Fin 2) * 256 + 1 * q.val = q.val; omega
  have hV : (V m c main_v20 : S1x256.Idx → EReal) = shapeCast S1x256 (m ((c : Thread nD τ).loc main_arg2)) shapeCasts_S256_S1x256 := by
    dsimp only [V, hostOps0]; after_results <;> rfl
  show V m c main_v20 (((cfg0.win 3).blk t).view.emb (ix2 (0 : Fin 1) q)) = _
  rw [hemb, hV]
  exact shapeCast_a_1a_apply _ _ (0 : Fin 1) q

theorem idx_whole4 : ∀ t : Fin cfg0.N, win0_4.index t (0 : Fin 2) = 0 ∧ win0_4.index t (1 : Fin 2) = 0 :=
  (by decide +kernel : ∀ t : Fin grid0.N, _)

theorem blk4 (c : Dev nD) (t : Fin cfg0.N) (p : Fin 256) (q : Fin 256) :
    iblk m c 4 t (ix2 p q) = (m ((c : Thread nD τ).loc main_arg3)) (ix2 p q) := by
  obtain ⟨e0, e1⟩ := idx_whole4 t
  have hemb : ((cfg0.win 4).blk t).view.emb (ix2 p q) = ix2 p q := by
    funext x; apply Fin.ext
    match x with
    | ⟨0, _⟩ => show win0_4.index t (0 : Fin 2) * 256 + 1 * p.val = p.val; omega
    | ⟨1, _⟩ => show win0_4.index t (1 : Fin 2) * 256 + 1 * q.val = q.val; omega
  have hV : (V m c main_v3 : S256x256.Idx → EReal) = truncf (F := Ideal) .bf16 (m ((c : Thread nD τ).loc main_arg3)) bitsLt_bf16_f32 := by
    dsimp only [V, hostOps0]; after_results <;> rfl
  show V m c main_v3 (((cfg0.win 4).blk t).view.emb (ix2 p q)) = _
  rw [hemb, hV]
  rfl

theorem idx_whole5 : ∀ t : Fin cfg0.N, win0_5.index t (0 : Fin 2) = 0 ∧ win0_5.index t (1 : Fin 2) = 0 :=
  (by decide +kernel : ∀ t : Fin grid0.N, _)

theorem blk5 (c : Dev nD) (t : Fin cfg0.N) (q : Fin 256) :
    iblk m c 5 t (ix2 (0 : Fin 1) q) = (m ((c : Thread nD τ).loc main_arg4)) (ix1 q) := by
  obtain ⟨e0, e1⟩ := idx_whole5 t
  have hemb : ((cfg0.win 5).blk t).view.emb (ix2 (0 : Fin 1) q) = ix2 (0 : Fin 1) q := by
    funext x; apply Fin.ext
    match x with
    | ⟨0, _⟩ => show win0_5.index t (0 : Fin 2) * 1 + 1 * 0 = 0; omega
    | ⟨1, _⟩ => show win0_5.index t (1 : Fin 2) * 256 + 1 * q.val = q.val; omega
  have hV : (V m c main_v21 : S1x256.Idx → EReal) = shapeCast S1x256 (m ((c : Thread nD τ).loc main_arg4)) shapeCasts_S256_S1x256 := by
    dsimp only [V, hostOps0]; after_results <;> rfl
  show V m c main_v21 (((cfg0.win 5).blk t).view.emb (ix2 (0 : Fin 1) q)) = _
  rw [hemb, hV]
  exact shapeCast_a_1a_apply _ _ (0 : Fin 1) q

theorem idx_whole6 : ∀ t : Fin cfg0.N, win0_6.index t (0 : Fin 2) = 0 ∧ win0_6.index t (1 : Fin 2) = 0 :=
  (by decide +kernel : ∀ t : Fin grid0.N, _)

theorem blk6 (c : Dev nD) (t : Fin cfg0.N) (p : Fin 256) (q : Fin 256) :
    iblk m c 6 t (ix2 p q) = (m ((c : Thread nD τ).loc main_arg5)) (ix2 p q) := by
  obtain ⟨e0, e1⟩ := idx_whole6 t
  have hemb : ((cfg0.win 6).blk t).view.emb (ix2 p q) = ix2 p q := by
    funext x; apply Fin.ext
    match x with
    | ⟨0, _⟩ => show win0_6.index t (0 : Fin 2) * 256 + 1 * p.val = p.val; omega
    | ⟨1, _⟩ => show win0_6.index t (1 : Fin 2) * 256 + 1 * q.val = q.val; omega
  have hV : (V m c main_v4 : S256x256.Idx → EReal) = truncf (F := Ideal) .bf16 (m ((c : Thread nD τ).loc main_arg5)) bitsLt_bf16_f32 := by
    dsimp only [V, hostOps0]; after_results <;> rfl
  show V m c main_v4 (((cfg0.win 6).blk t).view.emb (ix2 p q)) = _
  rw [hemb, hV]
  rfl

theorem idx_whole7 : ∀ t : Fin cfg0.N, win0_7.index t (0 : Fin 2) = 0 ∧ win0_7.index t (1 : Fin 2) = 0 :=
  (by decide +kernel : ∀ t : Fin grid0.N, _)

theorem blk7 (c : Dev nD) (t : Fin cfg0.N) (q : Fin 256) :
    iblk m c 7 t (ix2 (0 : Fin 1) q) = (m ((c : Thread nD τ).loc main_arg6)) (ix1 q) := by
  obtain ⟨e0, e1⟩ := idx_whole7 t
  have hemb : ((cfg0.win 7).blk t).view.emb (ix2 (0 : Fin 1) q) = ix2 (0 : Fin 1) q := by
    funext x; apply Fin.ext
    match x with
    | ⟨0, _⟩ => show win0_7.index t (0 : Fin 2) * 1 + 1 * 0 = 0; omega
    | ⟨1, _⟩ => show win0_7.index t (1 : Fin 2) * 256 + 1 * q.val = q.val; omega
  have hV : (V m c main_v22 : S1x256.Idx → EReal) = shapeCast S1x256 (m ((c : Thread nD τ).loc main_arg6)) shapeCasts_S256_S1x256 := by
    dsimp only [V, hostOps0]; after_results <;> rfl
  show V m c main_v22 (((cfg0.win 7).blk t).view.emb (ix2 (0 : Fin 1) q)) = _
  rw [hemb, hV]
  exact shapeCast_a_1a_apply _ _ (0 : Fin 1) q

theorem idx_whole8 : ∀ t : Fin cfg0.N, win0_8.index t (0 : Fin 2) = 0 ∧ win0_8.index t (1 : Fin 2) = 0 :=
  (by decide +kernel : ∀ t : Fin grid0.N, _)

theorem blk8 (c : Dev nD) (t : Fin cfg0.N) (p : Fin 256) (q : Fin 256) :
    iblk m c 8 t (ix2 p q) = (m ((c : Thread nD τ).loc main_arg7)) (ix2 p q) := by
  obtain ⟨e0, e1⟩ := idx_whole8 t
  have hemb : ((cfg0.win 8).blk t).view.emb (ix2 p q) = ix2 p q := by
    funext x; apply Fin.ext
    match x with
    | ⟨0, _⟩ => show win0_8.index t (0 : Fin 2) * 256 + 1 * p.val = p.val; omega
    | ⟨1, _⟩ => show win0_8.index t (1 : Fin 2) * 256 + 1 * q.val = q.val; omega
  have hV : (V m c main_v5 : S256x256.Idx → EReal) = truncf (F := Ideal) .bf16 (m ((c : Thread nD τ).loc main_arg7)) bitsLt_bf16_f32 := by
    dsimp only [V, hostOps0]; after_results <;> rfl
  show V m c main_v5 (((cfg0.win 8).blk t).view.emb (ix2 p q)) = _
  rw [hemb, hV]
  rfl

theorem idx_whole9 : ∀ t : Fin cfg0.N, win0_9.index t (0 : Fin 2) = 0 ∧ win0_9.index t (1 : Fin 2) = 0 :=
  (by decide +kernel : ∀ t : Fin grid0.N, _)

theorem blk9 (c : Dev nD) (t : Fin cfg0.N) (q : Fin 256) :
    iblk m c 9 t (ix2 (0 : Fin 1) q) = (m ((c : Thread nD τ).loc main_arg8)) (ix1 q) := by
  obtain ⟨e0, e1⟩ := idx_whole9 t
  have hemb : ((cfg0.win 9).blk t).view.emb (ix2 (0 : Fin 1) q) = ix2 (0 : Fin 1) q := by
    funext x; apply Fin.ext
    match x with
    | ⟨0, _⟩ => show win0_9.index t (0 : Fin 2) * 1 + 1 * 0 = 0; omega
    | ⟨1, _⟩ => show win0_9.index t (1 : Fin 2) * 256 + 1 * q.val = q.val; omega
  have hV : (V m c main_v23 : S1x256.Idx → EReal) = shapeCast S1x256 (m ((c : Thread nD τ).loc main_arg8)) shapeCasts_S256_S1x256 := by
    dsimp only [V, hostOps0]; after_results <;> rfl
  show V m c main_v23 (((cfg0.win 9).blk t).view.emb (ix2 (0 : Fin 1) q)) = _
  rw [hemb, hV]
  exact shapeCast_a_1a_apply _ _ (0 : Fin 1) q

theorem idx_whole10 : ∀ t : Fin cfg0.N, win0_10.index t (0 : Fin 2) = 0 ∧ win0_10.index t (1 : Fin 2) = 0 :=
  (by decide +kernel : ∀ t : Fin grid0.N, _)

theorem blk10 (c : Dev nD) (t : Fin cfg0.N) (p : Fin 256) (q : Fin 256) :
    iblk m c 10 t (ix2 p q) = (m ((c : Thread nD τ).loc main_arg9)) (ix2 p q) := by
  obtain ⟨e0, e1⟩ := idx_whole10 t
  have hemb : ((cfg0.win 10).blk t).view.emb (ix2 p q) = ix2 p q := by
    funext x; apply Fin.ext
    match x with
    | ⟨0, _⟩ => show win0_10.index t (0 : Fin 2) * 256 + 1 * p.val = p.val; omega
    | ⟨1, _⟩ => show win0_10.index t (1 : Fin 2) * 256 + 1 * q.val = q.val; omega
  have hV : (V m c main_v6 : S256x256.Idx → EReal) = truncf (F := Ideal) .bf16 (m ((c : Thread nD τ).loc main_arg9)) bitsLt_bf16_f32 := by
    dsimp only [V, hostOps0]; after_results <;> rfl
  show V m c main_v6 (((cfg0.win 10).blk t).view.emb (ix2 p q)) = _
  rw [hemb, hV]
  rfl

theorem idx_whole11 : ∀ t : Fin cfg0.N, win0_11.index t (0 : Fin 2) = 0 ∧ win0_11.index t (1 : Fin 2) = 0 :=
  (by decide +kernel : ∀ t : Fin grid0.N, _)

theorem blk11 (c : Dev nD) (t : Fin cfg0.N) (q : Fin 256) :
    iblk m c 11 t (ix2 (0 : Fin 1) q) = (m ((c : Thread nD τ).loc main_arg10)) (ix1 q) := by
  obtain ⟨e0, e1⟩ := idx_whole11 t
  have hemb : ((cfg0.win 11).blk t).view.emb (ix2 (0 : Fin 1) q) = ix2 (0 : Fin 1) q := by
    funext x; apply Fin.ext
    match x with
    | ⟨0, _⟩ => show win0_11.index t (0 : Fin 2) * 1 + 1 * 0 = 0; omega
    | ⟨1, _⟩ => show win0_11.index t (1 : Fin 2) * 256 + 1 * q.val = q.val; omega
  have hV : (V m c main_v24 : S1x256.Idx → EReal) = shapeCast S1x256 (m ((c : Thread nD τ).loc main_arg10)) shapeCasts_S256_S1x256 := by
    dsimp only [V, hostOps0]; after_results <;> rfl
  show V m c main_v24 (((cfg0.win 11).blk t).view.emb (ix2 (0 : Fin 1) q)) = _
  rw [hemb, hV]
  exact shapeCast_a_1a_apply _ _ (0 : Fin 1) q

theorem idx_whole12 : ∀ t : Fin cfg0.N, win0_12.index t (0 : Fin 2) = 0 ∧ win0_12.index t (1 : Fin 2) = 0 :=
  (by decide +kernel : ∀ t : Fin grid0.N, _)

theorem blk12 (c : Dev nD) (t : Fin cfg0.N) (p : Fin 63) (q : Fin 256) :
    iblk m c 12 t (ix2 p q) = (m ((c : Thread nD τ).loc main_arg11)) (ix2 ⟨p.val, by have := p.isLt; omega⟩ q) := by
  obtain ⟨e0, e1⟩ := idx_whole12 t
  have hemb : ((cfg0.win 12).blk t).view.emb (ix2 p q) = ix2 p q := by
    funext x; apply Fin.ext
    match x with
    | ⟨0, _⟩ => show win0_12.index t (0 : Fin 2) * 63 + 1 * p.val = p.val; omega
    | ⟨1, _⟩ => show win0_12.index t (1 : Fin 2) * 256 + 1 * q.val = q.val; omega
  have hV : (V m c main_v8 : S63x256.Idx → EReal) = truncf (F := Ideal) .bf16 (extractStridedSlice S63x256 ![0, 0] (m ((c : Thread nD τ).loc main_arg11)) slices_S319x256_S63x256_0_0) bitsLt_bf16_f32 := by
    dsimp only [V, hostOps0]; after_results <;> rfl
  show V m c main_v8 (((cfg0.win 12).blk t).view.emb (ix2 p q)) = _
  rw [hemb, hV]
  show extractStridedSlice S63x256 ![0, 0] (m ((c : Thread nD τ).loc main_arg11)) slices_S319x256_S63x256_0_0 (ix2 p q) = _
  exact slice2_axis0_apply 0 (m ((c : Thread nD τ).loc main_arg11)) slices_S319x256_S63x256_0_0 p q ⟨p.val, by have := p.isLt; omega⟩ (Nat.zero_add _).symm

theorem idx_whole13 : ∀ t : Fin cfg0.N, win0_13.index t (0 : Fin 2) = 0 ∧ win0_13.index t (1 : Fin 2) = 0 :=
  (by decide +kernel : ∀ t : Fin grid0.N, _)

theorem blk13 (c : Dev nD) (t : Fin cfg0.N) (p : Fin 256) (q : Fin 256) :
    iblk m c 13 t (ix2 p q) = (m ((c : Thread nD τ).loc main_arg11)) (ix2 ⟨63 + p.val, by have := p.isLt; omega⟩ q) := by
  obtain ⟨e0, e1⟩ := idx_whole13 t
  have hemb : ((cfg0.win 13).blk t).view.emb (ix2 p q) = ix2 p q := by
    funext x; apply Fin.ext
    match x with
    | ⟨0, _⟩ => show win0_13.index t (0 : Fin 2) * 256 + 1 * p.val = p.val; omega
    | ⟨1, _⟩ => show win0_13.index t (1 : Fin 2) * 256 + 1 * q.val = q.val; omega
  have hV : (V m c main_v10 : S256x256.Idx → EReal) = truncf (F := Ideal) .bf16 (extractStridedSlice S256x256 ![63, 0] (m ((c : Thread nD τ).loc main_arg11)) slices_S319x256_S256x256_63_0) bitsLt_bf16_f32 := by
    dsimp only [V, hostOps0]; after_results <;> rfl
  show V m c main_v10 (((cfg0.win 13).blk t).view.emb (ix2 p q)) = _
  rw [hemb, hV]
  show extractStridedSlice S256x256 ![63, 0] (m ((c : Thread nD τ).loc main_arg11)) slices_S319x256_S256x256_63_0 (ix2 p q) = _
  exact slice2_axis0_apply 63 (m ((c : Thread nD τ).loc main_arg11)) slices_S319x256_S256x256_63_0 p q ⟨63 + p.val, by have := p.isLt; omega⟩ rfl

theorem idx_whole14 : ∀ t : Fin cfg0.N, win0_14.index t (0 : Fin 2) = 0 ∧ win0_14.index t (1 : Fin 2) = 0 :=
  (by decide +kernel : ∀ t : Fin grid0.N, _)

theorem blk14 (c : Dev nD) (t : Fin cfg0.N) (q : Fin 256) :
    iblk m c 14 t (ix2 (0 : Fin 1) q) = (m ((c : Thread nD τ).loc main_arg12)) (ix1 q) := by
  obtain ⟨e0, e1⟩ := idx_whole14 t
  have hemb : ((cfg0.win 14).blk t).view.emb (ix2 (0 : Fin 1) q) = ix2 (0 : Fin 1) q := by
    funext x; apply Fin.ext
    match x with
    | ⟨0, _⟩ => show win0_14.index t (0 : Fin 2) * 1 + 1 * 0 = 0; omega
    | ⟨1, _⟩ => show win0_14.index t (1 : Fin 2) * 256 + 1 * q.val = q.val; omega
  have hV : (V m c main_v25 : S1x256.Idx → EReal) = shapeCast S1x256 (m ((c : Thread nD τ).loc main_arg12)) shapeCasts_S256_S1x256 := by
    dsimp only [V, hostOps0]; after_results <;> rfl
  show V m c main_v25 (((cfg0.win 14).blk t).view.emb (ix2 (0 : Fin 1) q)) = _
  rw [hemb, hV]
  exact shapeCast_a_1a_apply _ _ (0 : Fin 1) q

theorem idx_whole15 : ∀ t : Fin cfg0.N, win0_15.index t (0 : Fin 2) = 0 ∧ win0_15.index t (1 : Fin 2) = 0 :=
  (by decide +kernel : ∀ t : Fin grid0.N, _)

theorem blk15 (c : Dev nD) (t : Fin cfg0.N) (p : Fin 256) (q : Fin 256) :
    iblk m c 15 t (ix2 p q) = (m ((c : Thread nD τ).loc main_arg13)) (ix2 p q) := by
  obtain ⟨e0, e1⟩ := idx_whole15 t
  have hemb : ((cfg0.win 15).blk t).view.emb (ix2 p q) = ix2 p q := by
    funext x; apply Fin.ext
    match x with
    | ⟨0, _⟩ => show win0_15.index t (0 : Fin 2) * 256 + 1 * p.val = p.val; omega
    | ⟨1, _⟩ => show win0_15.index t (1 : Fin 2) * 256 + 1 * q.val = q.val; omega
  have hV : (V m c main_v11 : S256x256.Idx → EReal) = truncf (F := Ideal) .bf16 (m ((c : Thread nD τ).loc main_arg13)) bitsLt_bf16_f32 := by
    dsimp only [V, hostOps0]; after_results <;> rfl
  show V m c main_v11 (((cfg0.win 15).blk t).view.emb (ix2 p q)) = _
  rw [hemb, hV]
  rfl

theorem idx_whole16 : ∀ t : Fin cfg0.N, win0_16.index t (0 : Fin 2) = 0 ∧ win0_16.index t (1 : Fin 2) = 0 :=
  (by decide +kernel : ∀ t : Fin grid0.N, _)

theorem blk16 (c : Dev nD) (t : Fin cfg0.N) (q : Fin 256) :
    iblk m c 16 t (ix2 (0 : Fin 1) q) = (m ((c : Thread nD τ).loc main_arg14)) (ix1 q) := by
  obtain ⟨e0, e1⟩ := idx_whole16 t
  have hemb : ((cfg0.win 16).blk t).view.emb (ix2 (0 : Fin 1) q) = ix2 (0 : Fin 1) q := by
    funext x; apply Fin.ext
    match x with
    | ⟨0, _⟩ => show win0_16.index t (0 : Fin 2) * 1 + 1 * 0 = 0; omega
    | ⟨1, _⟩ => show win0_16.index t (1 : Fin 2) * 256 + 1 * q.val = q.val; omega
  have hV : (V m c main_v26 : S1x256.Idx → EReal) = shapeCast S1x256 (m ((c : Thread nD τ).loc main_arg14)) shapeCasts_S256_S1x256 := by
    dsimp only [V, hostOps0]; after_results <;> rfl
  show V m c main_v26 (((cfg0.win 16).blk t).view.emb (ix2 (0 : Fin 1) q)) = _
  rw [hemb, hV]
  exact shapeCast_a_1a_apply _ _ (0 : Fin 1) q

theorem idx_whole17 : ∀ t : Fin cfg0.N, win0_17.index t (0 : Fin 2) = 0 ∧ win0_17.index t (1 : Fin 2) = 0 :=
  (by decide +kernel : ∀ t : Fin grid0.N, _)

theorem blk17 (c : Dev nD) (t : Fin cfg0.N) (p : Fin 256) (q : Fin 256) :
    iblk m c 17 t (ix2 p q) = (m ((c : Thread nD τ).loc main_arg15)) (ix2 p q) := by
  obtain ⟨e0, e1⟩ := idx_whole17 t
  have hemb : ((cfg0.win 17).blk t).view.emb (ix2 p q) = ix2 p q := by
    funext x; apply Fin.ext
    match x with
    | ⟨0, _⟩ => show win0_17.index t (0 : Fin 2) * 256 + 1 * p.val = p.val; omega
    | ⟨1, _⟩ => show win0_17.index t (1 : Fin 2) * 256 + 1 * q.val = q.val; omega
  have hV : (V m c main_v12 : S256x256.Idx → EReal) = truncf (F := Ideal) .bf16 (m ((c : Thread nD τ).loc main_arg15)) bitsLt_bf16_f32 := by
    dsimp only [V, hostOps0]; after_results <;> rfl
  show V m c main_v12 (((cfg0.win 17).blk t).view.emb (ix2 p q)) = _
  rw [hemb, hV]
  rfl

theorem idx_whole18 : ∀ t : Fin cfg0.N, win0_18.index t (0 : Fin 2) = 0 ∧ win0_18.index t (1 : Fin 2) = 0 :=
  (by decide +kernel : ∀ t : Fin grid0.N, _)

theorem blk18 (c : Dev nD) (t : Fin cfg0.N) (q : Fin 256) :
    iblk m c 18 t (ix2 (0 : Fin 1) q) = (m ((c : Thread nD τ).loc main_arg16)) (ix1 q) := by
  obtain ⟨e0, e1⟩ := idx_whole18 t
  have hemb : ((cfg0.win 18).blk t).view.emb (ix2 (0 : Fin 1) q) = ix2 (0 : Fin 1) q := by
    funext x; apply Fin.ext
    match x with
    | ⟨0, _⟩ => show win0_18.index t (0 : Fin 2) * 1 + 1 * 0 = 0; omega
    | ⟨1, _⟩ => show win0_18.index t (1 : Fin 2) * 256 + 1 * q.val = q.val; omega
  have hV : (V m c main_v27 : S1x256.Idx → EReal) = shapeCast S1x256 (m ((c : Thread nD τ).loc main_arg16)) shapeCasts_S256_S1x256 := by
    dsimp only [V, hostOps0]; after_results <;> rfl
  show V m c main_v27 (((cfg0.win 18).blk t).view.emb (ix2 (0 : Fin 1) q)) = _
  rw [hemb, hV]
  exact shapeCast_a_1a_apply _ _ (0 : Fin 1) q

theorem idx_whole19 : ∀ t : Fin cfg0.N, win0_19.index t (0 : Fin 2) = 0 ∧ win0_19.index t (1 : Fin 2) = 0 :=
  (by decide +kernel : ∀ t : Fin grid0.N, _)

theorem blk19 (c : Dev nD) (t : Fin cfg0.N) (p : Fin 256) (q : Fin 256) :
    iblk m c 19 t (ix2 p q) = (m ((c : Thread nD τ).loc main_arg17)) (ix2 p q) := by
  obtain ⟨e0, e1⟩ := idx_whole19 t
  have hemb : ((cfg0.win 19).blk t).view.emb (ix2 p q) = ix2 p q := by
    funext x; apply Fin.ext
    match x with
    | ⟨0, _⟩ => show win0_19.index t (0 : Fin 2) * 256 + 1 * p.val = p.val; omega
    | ⟨1, _⟩ => show win0_19.index t (1 : Fin 2) * 256 + 1 * q.val = q.val; omega
  have hV : (V m c main_v13 : S256x256.Idx → EReal) = truncf (F := Ideal) .bf16 (m ((c : Thread nD τ).loc main_arg17)) bitsLt_bf16_f32 := by
    dsimp only [V, hostOps0]; after_results <;> rfl
  show V m c main_v13 (((cfg0.win 19).blk t).view.emb (ix2 p q)) = _
  rw [hemb, hV]
  rfl

theorem idx_whole20 : ∀ t : Fin cfg0.N, win0_20.index t (0 : Fin 2) = 0 ∧ win0_20.index t (1 : Fin 2) = 0 :=
  (by decide +kernel : ∀ t : Fin grid0.N, _)

theorem blk20 (c : Dev nD) (t : Fin cfg0.N) (q : Fin 256) :
    iblk m c 20 t (ix2 (0 : Fin 1) q) = (m ((c : Thread nD τ).loc main_arg18)) (ix1 q) := by
  obtain ⟨e0, e1⟩ := idx_whole20 t
  have hemb : ((cfg0.win 20).blk t).view.emb (ix2 (0 : Fin 1) q) = ix2 (0 : Fin 1) q := by
    funext x; apply Fin.ext
    match x with
    | ⟨0, _⟩ => show win0_20.index t (0 : Fin 2) * 1 + 1 * 0 = 0; omega
    | ⟨1, _⟩ => show win0_20.index t (1 : Fin 2) * 256 + 1 * q.val = q.val; omega
  have hV : (V m c main_v28 : S1x256.Idx → EReal) = shapeCast S1x256 (m ((c : Thread nD τ).loc main_arg18)) shapeCasts_S256_S1x256 := by
    dsimp only [V, hostOps0]; after_results <;> rfl
  show V m c main_v28 (((cfg0.win 20).blk t).view.emb (ix2 (0 : Fin 1) q)) = _
  rw [hemb, hV]
  exact shapeCast_a_1a_apply _ _ (0 : Fin 1) q

theorem idx_whole21 : ∀ t : Fin cfg0.N, win0_21.index t (0 : Fin 2) = 0 ∧ win0_21.index t (1 : Fin 2) = 0 :=
  (by decide +kernel : ∀ t : Fin grid0.N, _)

theorem blk21 (c : Dev nD) (t : Fin cfg0.N) (q : Fin 256) :
    iblk m c 21 t (ix2 (0 : Fin 1) q) = (m ((c : Thread nD τ).loc main_arg19)) (ix2 q (0 : Fin 1)) := by
  obtain ⟨e0, e1⟩ := idx_whole21 t
  have hemb : ((cfg0.win 21).blk t).view.emb (ix2 (0 : Fin 1) q) = ix2 (0 : Fin 1) q := by
    funext x; apply Fin.ext
    match x with
    | ⟨0, _⟩ => show win0_21.index t (0 : Fin 2) * 1 + 1 * 0 = 0; omega
    | ⟨1, _⟩ => show win0_21.index t (1 : Fin 2) * 256 + 1 * q.val = q.val; omega
  have hV : (V m c main_v18 : S1x256.Idx → EReal) = shapeCast S1x256 (m ((c : Thread nD τ).loc main_arg19)) shapeCasts_S256x1_S1x256 := by
    dsimp only [V, hostOps0]; after_results <;> rfl
  show V m c main_v18 (((cfg0.win 21).blk t).view.emb (ix2 (0 : Fin 1) q)) = _
  rw [hemb, hV]
  exact shapeCast_a1_1a_apply _ _ (0 : Fin 1) q

theorem idx_whole22 : ∀ t : Fin cfg0.N, win0_22.index t (0 : Fin 2) = 0 ∧ win0_22.index t (1 : Fin 2) = 0 :=
  (by decide +kernel : ∀ t : Fin grid0.N, _)

theorem blk22 (c : Dev nD) (t : Fin cfg0.N) (q : Fin 1) :
    iblk m c 22 t (ix2 (0 : Fin 1) q) = (m ((c : Thread nD τ).loc main_arg20)) (ix1 q) := by
  obtain ⟨e0, e1⟩ := idx_whole22 t
  have hemb : ((cfg0.win 22).blk t).view.emb (ix2 (0 : Fin 1) q) = ix2 (0 : Fin 1) q := by
    funext x; apply Fin.ext
    match x with
    | ⟨0, _⟩ => show win0_22.index t (0 : Fin 2) * 1 + 1 * 0 = 0; omega
    | ⟨1, _⟩ => show win0_22.index t (1 : Fin 2) * 1 + 1 * q.val = q.val; omega
  have hV : (V m c main_v29 : S1x1.Idx → EReal) = shapeCast S1x1 (m ((c : Thread nD τ).loc main_arg20)) shapeCasts_S1_S1x1 := by
    dsimp only [V, hostOps0]; after_results <;> rfl
  show V m c main_v29 (((cfg0.win 22).blk t).view.emb (ix2 (0 : Fin 1) q)) = _
  rw [hemb, hV]
  exact shapeCast_a_1a_apply _ _ (0 : Fin 1) q

theorem idx_whole23 : ∀ t : Fin cfg0.N, win0_23.index t (0 : Fin 2) = 0 ∧ win0_23.index t (1 : Fin 2) = 0 :=
  (by decide +kernel : ∀ t : Fin grid0.N, _)

theorem blk23 (c : Dev nD) (t : Fin cfg0.N) (p : Fin 256) (q : Fin 128) :
    iblk m c 23 t (ix2 p q) = (m ((c : Thread nD τ).loc main_arg21)) (ix2 ⟨p.val, by have := p.isLt; omega⟩ q) := by
  obtain ⟨e0, e1⟩ := idx_whole23 t
  have hemb : ((cfg0.win 23).blk t).view.emb (ix2 p q) = ix2 p q := by
    funext x; apply Fin.ext
    match x with
    | ⟨0, _⟩ => show win0_23.index t (0 : Fin 2) * 256 + 1 * p.val = p.val; omega
    | ⟨1, _⟩ => show win0_23.index t (1 : Fin 2) * 128 + 1 * q.val = q.val; omega
  have hV : (V m c main_v15 : S256x128.Idx → EReal) = truncf (F := Ideal) .bf16 (extractStridedSlice S256x128 ![0, 0] (m ((c : Thread nD τ).loc main_arg21)) slices_S319x128_S256x128_0_0) bitsLt_bf16_f32 := by
    dsimp only [V, hostOps0]; after_results <;> rfl
  show V m c main_v15 (((cfg0.win 23).blk t).view.emb (ix2 p q)) = _
  rw [hemb, hV]
  show extractStridedSlice S256x128 ![0, 0] (m ((c : Thread nD τ).loc main_arg21)) slices_S319x128_S256x128_0_0 (ix2 p q) = _
  exact slice2_axis0_apply 0 (m ((c : Thread nD τ).loc main_arg21)) slices_S319x128_S256x128_0_0 p q ⟨p.val, by have := p.isLt; omega⟩ (Nat.zero_add _).symm

theorem idx_whole24 : ∀ t : Fin cfg0.N, win0_24.index t (0 : Fin 2) = 0 ∧ win0_24.index t (1 : Fin 2) = 0 :=
  (by decide +kernel : ∀ t : Fin grid0.N, _)

theorem blk24 (c : Dev nD) (t : Fin cfg0.N) (p : Fin 63) (q : Fin 128) :
    iblk m c 24 t (ix2 p q) = (m ((c : Thread nD τ).loc main_arg21)) (ix2 ⟨256 + p.val, by have := p.isLt; omega⟩ q) := by
  obtain ⟨e0, e1⟩ := idx_whole24 t
  have hemb : ((cfg0.win 24).blk t).view.emb (ix2 p q) = ix2 p q := by
    funext x; apply Fin.ext
    match x with
    | ⟨0, _⟩ => show win0_24.index t (0 : Fin 2) * 63 + 1 * p.val = p.val; omega
    | ⟨1, _⟩ => show win0_24.index t (1 : Fin 2) * 128 + 1 * q.val = q.val; omega
  have hV : (V m c main_v17 : S63x128.Idx → EReal) = truncf (F := Ideal) .bf16 (extractStridedSlice S63x128 ![256, 0] (m ((c : Thread nD τ).loc main_arg21)) slices_S319x128_S63x128_256_0) bitsLt_bf16_f32 := by
    dsimp only [V, hostOps0]; after_results <;> rfl
  show V m c main_v17 (((cfg0.win 24).blk t).view.emb (ix2 p q)) = _
  rw [hemb, hV]
  show extractStridedSlice S63x128 ![256, 0] (m ((c : Thread nD τ).loc main_arg21)) slices_S319x128_S63x128_256_0 (ix2 p q) = _
  exact slice2_axis0_apply 256 (m ((c : Thread nD τ).loc main_arg21)) slices_S319x128_S63x128_256_0 p q ⟨256 + p.val, by have := p.isLt; omega⟩ rfl

theorem idx_whole25 : ∀ t : Fin cfg0.N, win0_25.index t (0 : Fin 2) = 0 ∧ win0_25.index t (1 : Fin 2) = 0 :=
  (by decide +kernel : ∀ t : Fin grid0.N, _)

theorem blk25 (c : Dev nD) (t : Fin cfg0.N) (q : Fin 128) :
    iblk m c 25 t (ix2 (0 : Fin 1) q) = (m ((c : Thread nD τ).loc main_arg22)) (ix1 q) := by
  obtain ⟨e0, e1⟩ := idx_whole25 t
  have hemb : ((cfg0.win 25).blk t).view.emb (ix2 (0 : Fin 1) q) = ix2 (0 : Fin 1) q := by
    funext x; apply Fin.ext
    match x with
    | ⟨0, _⟩ => show win0_25.index t (0 : Fin 2) * 1 + 1 * 0 = 0; omega
    | ⟨1, _⟩ => show win0_25.index t (1 : Fin 2) * 128 + 1 * q.val = q.val; omega
  have hV : (V m c main_v30 : S1x128.Idx → EReal) = shapeCast S1x128 (m ((c : Thread nD τ).loc main_arg22)) shapeCasts_S128_S1x128 := by
    dsimp only [V, hostOps0]; after_results <;> rfl
  show V m c main_v30 (((cfg0.win 25).blk t).view.emb (ix2 (0 : Fin 1) q)) = _
  rw [hemb, hV]
  exact shapeCast_a_1a_apply _ _ (0 : Fin 1) q

theorem idx_whole26 : ∀ t : Fin cfg0.N, win0_26.index t (0 : Fin 2) = 0 ∧ win0_26.index t (1 : Fin 2) = 0 :=
  (by decide +kernel : ∀ t : Fin grid0.N, _)

theorem blk26 (c : Dev nD) (t : Fin cfg0.N) (p : Fin 3) (q : Fin 128) :
    iblk m c 26 t (ix2 p q) = (m ((c : Thread nD τ).loc main_arg23)) (ix2 q p) := by
  obtain ⟨e0, e1⟩ := idx_whole26 t
  have hemb : ((cfg0.win 26).blk t).view.emb (ix2 p q) = ix2 p q := by
    funext x; apply Fin.ext
    match x with
    | ⟨0, _⟩ => show win0_26.index t (0 : Fin 2) * 3 + 1 * p.val = p.val; omega
    | ⟨1, _⟩ => show win0_26.index t (1 : Fin 2) * 128 + 1 * q.val = q.val; omega
  have hV : (V m c main_v19 : S3x128.Idx → EReal) = transpose S3x128 [1, 0] (m ((c : Thread nD τ).loc main_arg23)) transposes_S128x3_S3x128_1_0 := by
    dsimp only [V, hostOps0]; after_results <;> rfl
  show V m c main_v19 (((cfg0.win 26).blk t).view.emb (ix2 p q)) = _
  rw [hemb, hV]
  exact transpose_ix2_apply _ _ p q

theorem idx_whole27 : ∀ t : Fin cfg0.N, win0_27.index t (0 : Fin 2) = 0 ∧ win0_27.index t (1 : Fin 2) = 0 :=
  (by decide +kernel : ∀ t : Fin grid0.N, _)

theorem blk27 (c : Dev nD) (t : Fin cfg0.N) (q : Fin 3) :
    iblk m c 27 t (ix2 (0 : Fin 1) q) = (m ((c : Thread nD τ).loc main_arg24)) (ix1 q) := by
  obtain ⟨e0, e1⟩ := idx_whole27 t
  have hemb : ((cfg0.win 27).blk t).view.emb (ix2 (0 : Fin 1) q) = ix2 (0 : Fin 1) q := by
    funext x; apply Fin.ext
    match x with
    | ⟨0, _⟩ => show win0_27.index t (0 : Fin 2) * 1 + 1 * 0 = 0; omega
    | ⟨1, _⟩ => show win0_27.index t (1 : Fin 2) * 3 + 1 * q.val = q.val; omega
  have hV : (V m c main_v31 : S1x3.Idx → EReal) = shapeCast S1x3 (m ((c : Thread nD τ).loc main_arg24)) shapeCasts_S3_S1x3 := by
    dsimp only [V, hostOps0]; after_results <;> rfl
  show V m c main_v31 (((cfg0.win 27).blk t).view.emb (ix2 (0 : Fin 1) q)) = _
  rw [hemb, hV]
  exact shapeCast_a_1a_apply _ _ (0 : Fin 1) q

end Cert.KerBlocks

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibKerLayer.lean ====
/-
  A block of rows through one affine map, max(·, 0), and a one-output head, read at a row.

  The block is a P × K matrix h; the weight is K × J and the bias a 1 × J row laid over the P rows. At row p and
  output j the matrix product into a zero accumulator plus the bias is Σ_l h[p, l] · W[l, j] + b[j]: it depends on
  row p of h only. The same for two products added before the bias (two blocks of weight rows), for max(·, 0) against a
  splat zero, and for a head computed on the lanes — the row times a 1 × C weight row laid over the P rows, summed
  along the row, reshaped to a column, plus a 1 × 1 bias laid over the rows. Last, four P × 1 columns laid side by side
  read, at (p, g), column g at row p.

  Every statement takes the row's contents (and the weight's and bias's entries) as hypotheses, so a chain of layers
  is proved by handing each layer the previous one's statement.
-/
import Idealize.ShloMosaic.Lib.ValueLayout
import Idealize.ShloMosaic.Lib.Pipeline.Value
import proofs.«177188_j14285061226818_2_alg».proof.Proof.LibPlainDot
import proofs.«177188_j14285061226818_2_alg».proof.Proof.LibAxisReduce
import proofs.«177188_j14285061226818_2_alg».proof.Proof.LibColumn
import proofs.«177188_j14285061226818_2_alg».proof.Proof.Spec

noncomputable section

open scoped BigOperators

namespace Cert.LibKerLayer

open Idealize.ShloMosaic Idealize.ShloMosaic.ValueIdx Cert.Spec

variable {P K J : ℕ}

/-- The splat of the zero word is 0. -/
theorem zero_splat (s : Shape) (i : s.Idx) :
    (broadcast s (Scalar.ofBits (F := Ideal) .f32 0x00000000#32) : FVec Ideal s .f32) i = 0 :=
  Ideal.ofBits_zero_f32

/-- max(·, 0) of a block against a splat zero, read at an entry whose value is known. -/
theorem relu_apply (v : FVec Ideal ⟨2, ![P, J]⟩ .f32) (p : Fin P) (r : Fin J → EReal)
    (hv : ∀ j, v (ix2 p j) = r j) (j : Fin J) :
    maximumf v (broadcast ⟨2, ![P, J]⟩ (Scalar.ofBits (F := Ideal) .f32 0x00000000#32)) (ix2 p j) = relu r j := by
  show max (v (ix2 p j)) ((broadcast ⟨2, ![P, J]⟩ (Scalar.ofBits (F := Ideal) .f32 0x00000000#32) : FVec Ideal _ .f32) (ix2 p j)) = _
  rw [zero_splat, hv]
  rfl

/-- One product into a zero accumulator, read at (p, j), from row p of the left operand. -/
theorem prod_apply {φ₁ φ₂ : FTy} (D : DotDims ⟨2, ![P, K]⟩ ⟨2, ![K, J]⟩ ⟨2, ![P, J]⟩) (hD : D = DotDims.plain P K J)
    (h : FVec Ideal ⟨2, ![P, K]⟩ φ₁) (Wm : FVec Ideal ⟨2, ![K, J]⟩ φ₂)
    (hW : (⟨2, ![K, J]⟩ : Shape).ShapeCasts ⟨2, ![K, J]⟩)
    (p : Fin P) (hrow : Fin K → EReal) (W : Fin K → Fin J → EReal)
    (hh : ∀ l, h (ix2 p l) = hrow l) (hWm : ∀ l j, Wm (ix2 l j) = W l j) (j : Fin J) :
    matmul D none h (shapeCast ⟨2, ![K, J]⟩ Wm hW) (constant (F := Ideal) ⟨2, ![P, J]⟩ .f32 0x00000000#32) (ix2 p j)
      = ∑ l : Fin K, hrow l * W l j := by
  subst hD
  rw [shapeCast_self]
  refine (LibPlainDot.matmul_zero_apply none h Wm p j).trans ?_
  exact Finset.sum_congr rfl fun l _ => by rw [hh, hWm]

/-- A 1 × J row (through an identity cast) laid over P rows, read at (p, j). -/
theorem bias_apply (bv : FVec Ideal ⟨2, ![1, J]⟩ .f32)
    (hb : (⟨2, ![1, J]⟩ : Shape).ShapeCasts ⟨2, ![1, J]⟩) (hbc : (⟨2, ![1, J]⟩ : Shape).Broadcasts ⟨2, ![P, J]⟩)
    (p : Fin P) (b : Fin J → EReal) (hbv : ∀ j, bv (ix2 (0 : Fin 1) j) = b j) (j : Fin J) :
    broadcastTo ⟨2, ![P, J]⟩ (shapeCast ⟨2, ![1, J]⟩ bv hb) hbc (ix2 p j) = b j := by
  rw [shapeCast_self, broadcastTo_1b_ab_apply]
  exact hbv j

/-- The affine map of a block, read at (p, j). -/
theorem affine_apply {φ₁ φ₂ : FTy} (D : DotDims ⟨2, ![P, K]⟩ ⟨2, ![K, J]⟩ ⟨2, ![P, J]⟩) (hD : D = DotDims.plain P K J)
    (h : FVec Ideal ⟨2, ![P, K]⟩ φ₁) (Wm : FVec Ideal ⟨2, ![K, J]⟩ φ₂) (bv : FVec Ideal ⟨2, ![1, J]⟩ .f32)
    (hW : (⟨2, ![K, J]⟩ : Shape).ShapeCasts ⟨2, ![K, J]⟩)
    (hb : (⟨2, ![1, J]⟩ : Shape).ShapeCasts ⟨2, ![1, J]⟩) (hbc : (⟨2, ![1, J]⟩ : Shape).Broadcasts ⟨2, ![P, J]⟩)
    (p : Fin P) (hrow : Fin K → EReal) (W : Fin K → Fin J → EReal) (b : Fin J → EReal)
    (hh : ∀ l, h (ix2 p l) = hrow l) (hWm : ∀ l j, Wm (ix2 l j) = W l j) (hbv : ∀ j, bv (ix2 (0 : Fin 1) j) = b j)
    (j : Fin J) :
    addf (matmul D none h (shapeCast ⟨2, ![K, J]⟩ Wm hW) (constant (F := Ideal) ⟨2, ![P, J]⟩ .f32 0x00000000#32))
        (broadcastTo ⟨2, ![P, J]⟩ (shapeCast ⟨2, ![1, J]⟩ bv hb) hbc) (ix2 p j)
      = dense hrow W b j := by
  rw [addf_apply, prod_apply D hD h Wm hW p hrow W hh hWm j, bias_apply bv hb hbc p b hbv j]
  rfl

/-- One layer of a block — affine map, then max(·, 0) — read at (p, j). -/
theorem layer_apply {φ₁ φ₂ : FTy} (D : DotDims ⟨2, ![P, K]⟩ ⟨2, ![K, J]⟩ ⟨2, ![P, J]⟩) (hD : D = DotDims.plain P K J)
    (h : FVec Ideal ⟨2, ![P, K]⟩ φ₁) (Wm : FVec Ideal ⟨2, ![K, J]⟩ φ₂) (bv : FVec Ideal ⟨2, ![1, J]⟩ .f32)
    (hW : (⟨2, ![K, J]⟩ : Shape).ShapeCasts ⟨2, ![K, J]⟩)
    (hb : (⟨2, ![1, J]⟩ : Shape).ShapeCasts ⟨2, ![1, J]⟩) (hbc : (⟨2, ![1, J]⟩ : Shape).Broadcasts ⟨2, ![P, J]⟩)
    (p : Fin P) (hrow : Fin K → EReal) (W : Fin K → Fin J → EReal) (b : Fin J → EReal)
    (hh : ∀ l, h (ix2 p l) = hrow l) (hWm : ∀ l j, Wm (ix2 l j) = W l j) (hbv : ∀ j, bv (ix2 (0 : Fin 1) j) = b j)
    (j : Fin J) :
    maximumf (addf (matmul D none h (shapeCast ⟨2, ![K, J]⟩ Wm hW) (constant (F := Ideal) ⟨2, ![P, J]⟩ .f32 0x00000000#32))
        (broadcastTo ⟨2, ![P, J]⟩ (shapeCast ⟨2, ![1, J]⟩ bv hb) hbc))
        (broadcast ⟨2, ![P, J]⟩ (Scalar.ofBits (F := Ideal) .f32 0x00000000#32)) (ix2 p j)
      = relu (dense hrow W b) j :=
  relu_apply _ p _ (fun j' => affine_apply D hD h Wm bv hW hb hbc p hrow W b hh hWm hbv j') j

/-- Two products added, then the bias: the affine map of two blocks against two blocks of weight rows, at (p, j). -/
theorem affine2_apply {A B : ℕ} {φ₁ φ₂ φ₃ φ₄ : FTy}
    (D₁ : DotDims ⟨2, ![P, A]⟩ ⟨2, ![A, J]⟩ ⟨2, ![P, J]⟩) (hD₁ : D₁ = DotDims.plain P A J)
    (D₂ : DotDims ⟨2, ![P, B]⟩ ⟨2, ![B, J]⟩ ⟨2, ![P, J]⟩) (hD₂ : D₂ = DotDims.plain P B J)
    (u : FVec Ideal ⟨2, ![P, A]⟩ φ₁) (Wu : FVec Ideal ⟨2, ![A, J]⟩ φ₂)
    (v : FVec Ideal ⟨2, ![P, B]⟩ φ₃) (Wv : FVec Ideal ⟨2, ![B, J]⟩ φ₄) (bv : FVec Ideal ⟨2, ![1, J]⟩ .f32)
    (hWu : (⟨2, ![A, J]⟩ : Shape).ShapeCasts ⟨2, ![A, J]⟩) (hWv : (⟨2, ![B, J]⟩ : Shape).ShapeCasts ⟨2, ![B, J]⟩)
    (hb : (⟨2, ![1, J]⟩ : Shape).ShapeCasts ⟨2, ![1, J]⟩) (hbc : (⟨2, ![1, J]⟩ : Shape).Broadcasts ⟨2, ![P, J]⟩)
    (p : Fin P) (urow : Fin A → EReal) (vrow : Fin B → EReal) (WU : Fin A → Fin J → EReal) (WV : Fin B → Fin J → EReal)
    (b : Fin J → EReal)
    (hu : ∀ l, u (ix2 p l) = urow l) (hv : ∀ l, v (ix2 p l) = vrow l)
    (hWU : ∀ l j, Wu (ix2 l j) = WU l j) (hWV : ∀ l j, Wv (ix2 l j) = WV l j)
    (hbv : ∀ j, bv (ix2 (0 : Fin 1) j) = b j) (j : Fin J) :
    addf (addf (matmul D₁ none u (shapeCast ⟨2, ![A, J]⟩ Wu hWu) (constant (F := Ideal) ⟨2, ![P, J]⟩ .f32 0x00000000#32))
          (matmul D₂ none v (shapeCast ⟨2, ![B, J]⟩ Wv hWv) (constant (F := Ideal) ⟨2, ![P, J]⟩ .f32 0x00000000#32)))
        (broadcastTo ⟨2, ![P, J]⟩ (shapeCast ⟨2, ![1, J]⟩ bv hb) hbc) (ix2 p j)
      = dense2 urow vrow WU WV b j := by
  rw [addf_apply, addf_apply, prod_apply D₁ hD₁ u Wu hWu p urow WU hu hWU j,
    prod_apply D₂ hD₂ v Wv hWv p vrow WV hv hWV j, bias_apply bv hb hbc p b hbv j]
  rfl

/-- A head computed on the lanes: row p of h times a 1 × C weight row laid over the rows, summed along the row, as a
    column, plus a 1 × 1 bias laid over the rows: Σ_c h[p, c] · w[c] + b. -/
theorem head_apply {C : ℕ} (h : FVec Ideal ⟨2, ![P, C]⟩ .f32) (wrow : FVec Ideal ⟨2, ![1, C]⟩ .f32)
    (b11 : FVec Ideal ⟨2, ![1, 1]⟩ .f32)
    (hbc : (⟨2, ![1, C]⟩ : Shape).Broadcasts ⟨2, ![P, C]⟩)
    (hred : (⟨2, ![P, C]⟩ : Shape).Reduces [1] ⟨1, ![P]⟩) (hφ : FKind.Formats FTy.f32)
    (hacc : (0x00000000#32 : BitVec FTy.f32.bits) = FKind.add.neutral .f32 hφ)
    (hsc : (⟨1, ![P]⟩ : Shape).ShapeCasts ⟨2, ![P, 1]⟩) (hbc1 : (⟨2, ![1, 1]⟩ : Shape).Broadcasts ⟨2, ![P, 1]⟩)
    (p : Fin P) (hrow : Fin C → EReal) (w : Fin C → EReal) (b : EReal)
    (hh : ∀ c, h (ix2 p c) = hrow c) (hw : ∀ c, wrow (ix2 (0 : Fin 1) c) = w c)
    (hb : b11 (ix2 (0 : Fin 1) (0 : Fin 1)) = b) (u : Fin 1) :
    addf (shapeCast ⟨2, ![P, 1]⟩
          (multiReduction .add [1] ⟨1, ![P]⟩ (mulf h (broadcastTo ⟨2, ![P, C]⟩ wrow hbc)) 0x00000000#32 hred hφ hacc) hsc)
        (broadcastTo ⟨2, ![P, 1]⟩ b11 hbc1) (ix2 p u)
      = (∑ c : Fin C, hrow c * w c) + b := by
  rw [addf_apply, LibColumn.shapeCast_a_a1_apply, broadcastTo_1b_ab_apply]
  refine congrArg₂ (· + ·) ?_ ?_
  · refine (LibAxisReduce.add_cols_apply _ _ hred hφ hacc p).trans ?_
    refine Finset.sum_congr rfl fun c _ => ?_
    rw [mulf_apply, broadcastTo_1b_ab_apply, hh, hw]
  · have hu : u = 0 := Subsingleton.elim _ _
    rw [hu]; exact hb

/-- Four P × 1 columns laid side by side read, at (p, g), column g at row p. -/
theorem concat4_apply {α : Type} (c0 c1 c2 c3 : (⟨2, ![P, 1]⟩ : Shape).Idx → α)
    (h : Shape.Concatenates [(⟨2, ![P, 1]⟩ : Shape), ⟨2, ![P, 1]⟩, ⟨2, ![P, 1]⟩, ⟨2, ![P, 1]⟩] ⟨2, ![P, 4]⟩ 1)
    (p : Fin P) (g : Fin 4) (r : Fin 4 → α)
    (h0 : c0 (ix2 p (0 : Fin 1)) = r 0) (h1 : c1 (ix2 p (0 : Fin 1)) = r 1)
    (h2 : c2 (ix2 p (0 : Fin 1)) = r 2) (h3 : c3 (ix2 p (0 : Fin 1)) = r 3) :
    concatenate ⟨2, ![P, 4]⟩ 1 [⟨⟨2, ![P, 1]⟩, c0⟩, ⟨⟨2, ![P, 1]⟩, c1⟩, ⟨⟨2, ![P, 1]⟩, c2⟩, ⟨⟨2, ![P, 1]⟩, c3⟩] h (ix2 p g)
      = r g := by
  have off : ∀ (g : Fin 4) (b : Fin (⟨2, ![P, 1]⟩ : Shape).rank),
      b.cast (rfl : (⟨2, ![P, 1]⟩ : Shape).rank = (⟨2, ![P, 4]⟩ : Shape).rank) ≠ (1 : Fin 2) →
      ((ix2 p (0 : Fin 1) : (⟨2, ![P, 1]⟩ : Shape).Idx) b).val
        = ((ix2 p g : (⟨2, ![P, 4]⟩ : Shape).Idx) (b.cast rfl)).val := by
    intro g b hb
    match b with
    | ⟨0, _⟩ => rfl
    | ⟨1, _⟩ => exact absurd rfl hb
  match g with
  | ⟨0, hg⟩ =>
    exact (concatenate_apply_piece (t := ⟨2, ![P, 4]⟩) 1
      [⟨⟨2, ![P, 1]⟩, c0⟩, ⟨⟨2, ![P, 1]⟩, c1⟩, ⟨⟨2, ![P, 1]⟩, c2⟩, ⟨⟨2, ![P, 1]⟩, c3⟩] h (ix2 p ⟨0, hg⟩)
      0 (show (0 : ℕ) < 4 by decide) ⟨2, ![P, 1]⟩ c0 rfl rfl 0 rfl (ix2 p (0 : Fin 1)) (off ⟨0, hg⟩) rfl).trans h0
  | ⟨1, hg⟩ =>
    exact (concatenate_apply_piece (t := ⟨2, ![P, 4]⟩) 1
      [⟨⟨2, ![P, 1]⟩, c0⟩, ⟨⟨2, ![P, 1]⟩, c1⟩, ⟨⟨2, ![P, 1]⟩, c2⟩, ⟨⟨2, ![P, 1]⟩, c3⟩] h (ix2 p ⟨1, hg⟩)
      1 (show (1 : ℕ) < 4 by decide) ⟨2, ![P, 1]⟩ c1 rfl rfl 1 rfl (ix2 p (0 : Fin 1)) (off ⟨1, hg⟩) rfl).trans h1
  | ⟨2, hg⟩ =>
    exact (concatenate_apply_piece (t := ⟨2, ![P, 4]⟩) 1
      [⟨⟨2, ![P, 1]⟩, c0⟩, ⟨⟨2, ![P, 1]⟩, c1⟩, ⟨⟨2, ![P, 1]⟩, c2⟩, ⟨⟨2, ![P, 1]⟩, c3⟩] h (ix2 p ⟨2, hg⟩)
      2 (show (2 : ℕ) < 4 by decide) ⟨2, ![P, 1]⟩ c2 rfl rfl 2 rfl (ix2 p (0 : Fin 1)) (off ⟨2, hg⟩) rfl).trans h2
  | ⟨3, hg⟩ =>
    exact (concatenate_apply_piece (t := ⟨2, ![P, 4]⟩) 1
      [⟨⟨2, ![P, 1]⟩, c0⟩, ⟨⟨2, ![P, 1]⟩, c1⟩, ⟨⟨2, ![P, 1]⟩, c2⟩, ⟨⟨2, ![P, 1]⟩, c3⟩] h (ix2 p ⟨3, hg⟩)
      3 (show (3 : ℕ) < 4 by decide) ⟨2, ![P, 1]⟩ c3 rfl rfl 3 rfl (ix2 p (0 : Fin 1)) (off ⟨3, hg⟩) rfl).trans h3

end Cert.LibKerLayer

end
-- ==== Proof.KerPayload.lean ====
/-
  The kernel body's arithmetic at one row of a block is the network on that row.

  The body holds a block of 4096 rows. Its stored value is built from eight nested terms; at row p each of them depends
  on row p of the point block and of the view block only, and on the whole weight and bias blocks. Going through them
  in order: the first three layers; layers four and five, the sixth layer's two products (point features against the
  sixth weight's first 63 rows, fifth layer's output against its last 256 rows) and the seventh layer's product; the
  seventh layer's bias and max, and the eighth layer; the density head as a lane sum; the feature map and its product
  with the colour branch's first 256 weight rows; and last the view features' product with that weight's last 63 rows,
  the bias, max, the three colour heads as lane sums, and the four columns laid side by side. The narrowing of a
  float to sixteen bits is the identity on the extended reals, so it drops out everywhere.
-/
import proofs.«177188_j14285061226818_2_alg».proof.Proof.Gen.KernelIdeal.Skeleton
import proofs.«177188_j14285061226818_2_alg».proof.Proof.LibKerLayer
import proofs.«177188_j14285061226818_2_alg».proof.Proof.Spec

noncomputable section

open scoped BigOperators

namespace Cert.KerPayload

open Idealize.ShloMosaic Idealize.ShloMosaic.ValueIdx Cert.KernelIdeal Cert.KernelIdeal.Gen Cert.Spec Cert.LibKerLayer

variable (w : Weights) (pts views : Fin 63 → EReal) (p : Fin 4096)

/-- The trunk after its third map. -/
def trunk2 : Fin 256 → EReal :=
  relu (dense (relu (dense (relu (dense pts w.W0 w.b0)) w.W1 w.b1)) w.W2 w.b2)

/-- The trunk after its sixth map (the one that reads the point features again). -/
def trunk5 : Fin 256 → EReal :=
  relu (dense2 pts (trunk4 w pts) (topRows (A := 63) (B := 256) rfl w.W5) (botRows (A := 63) (B := 256) rfl w.W5) w.b5)

theorem trunk4_eq : trunk4 w pts = relu (dense (relu (dense (trunk2 w pts) w.W3 w.b3)) w.W4 w.b4) := rfl

theorem trunk7_eq : trunk7 w pts = relu (dense (relu (dense (trunk5 w pts) w.W6 w.b6)) w.W7 w.b7) := rfl

/-- A block narrowed to sixteen bits, at row p. -/
theorem narrow_apply (v0 : FVec Ideal S4096x63 .f32) (r : Fin 63 → EReal) (h0 : ∀ l, v0 (ix2 p l) = r l) (l : Fin 63) :
    k0_pay2 (F := Ideal) v0 (ix2 p l) = r l := by
  unfold k0_pay2
  rw [truncf_apply, shapeCast_self]
  exact h0 l

theorem narrow_apply' (v2 : FVec Ideal S4096x63 .f32) (r : Fin 63 → EReal) (h0 : ∀ l, v2 (ix2 p l) = r l) (l : Fin 63) :
    k0_pay3 (F := Ideal) v2 (ix2 p l) = r l := by
  unfold k0_pay3
  rw [truncf_apply, shapeCast_self]
  exact h0 l

/-- The first three layers at row p. -/
theorem first3_apply (v0 : FVec Ideal S4096x63 .f32) (v6 : FVec Ideal S63x256 .bf16) (v9 : FVec Ideal S1x256 .f32)
    (v16 : FVec Ideal S256x256 .bf16) (v19 : FVec Ideal S1x256 .f32) (v26 : FVec Ideal S256x256 .bf16)
    (v29 : FVec Ideal S1x256 .f32)
    (h0 : ∀ l, v0 (ix2 p l) = pts l)
    (hW0 : ∀ l j, v6 (ix2 l j) = w.W0 l j) (hb0 : ∀ j, v9 (ix2 (0 : Fin 1) j) = w.b0 j)
    (hW1 : ∀ l j, v16 (ix2 l j) = w.W1 l j) (hb1 : ∀ j, v19 (ix2 (0 : Fin 1) j) = w.b1 j)
    (hW2 : ∀ l j, v26 (ix2 l j) = w.W2 l j) (hb2 : ∀ j, v29 (ix2 (0 : Fin 1) j) = w.b2 j) (j : Fin 256) :
    k0_pay4 (F := Ideal) v0 v6 v9 v16 v19 v26 v29 (ix2 p j) = trunk2 w pts j := by
  unfold k0_pay4
  rw [truncf_apply]
  refine layer_apply dot_S4096x256_S256x256_S4096x256_1_0_0_1_n_n rfl _ v26 v29 _ _ _ p _ w.W2 w.b2 (fun l => ?_) hW2 hb2 j
  rw [truncf_apply]
  refine layer_apply dot_S4096x256_S256x256_S4096x256_1_0_0_1_n_n rfl _ v16 v19 _ _ _ p _ w.W1 w.b1 (fun l' => ?_) hW1 hb1 l
  rw [truncf_apply]
  exact layer_apply dot_S4096x63_S63x256_S4096x256_1_0_0_1_n_n rfl _ v6 v9 _ _ _ p pts w.W0 w.b0 (narrow_apply p v0 pts h0) hW0 hb0 l'

/-- Layers four to six and the seventh layer's product, at row p. -/
theorem mid_apply (v4 : FVec Ideal S4096x63 .bf16) (v35 : FVec Ideal S4096x256 .bf16)
    (v36 : FVec Ideal S256x256 .bf16) (v39 : FVec Ideal S1x256 .f32)
    (v46 : FVec Ideal S256x256 .bf16) (v49 : FVec Ideal S1x256 .f32)
    (v56 : FVec Ideal S63x256 .bf16) (v59 : FVec Ideal S256x256 .bf16) (v63 : FVec Ideal S1x256 .f32)
    (v70 : FVec Ideal S256x256 .bf16)
    (h4 : ∀ l, v4 (ix2 p l) = pts l) (h35 : ∀ l, v35 (ix2 p l) = trunk2 w pts l)
    (hW3 : ∀ l j, v36 (ix2 l j) = w.W3 l j) (hb3 : ∀ j, v39 (ix2 (0 : Fin 1) j) = w.b3 j)
    (hW4 : ∀ l j, v46 (ix2 l j) = w.W4 l j) (hb4 : ∀ j, v49 (ix2 (0 : Fin 1) j) = w.b4 j)
    (hW5a : ∀ l j, v56 (ix2 l j) = topRows (A := 63) (B := 256) rfl w.W5 l j)
    (hW5b : ∀ l j, v59 (ix2 l j) = botRows (A := 63) (B := 256) rfl w.W5 l j)
    (hb5 : ∀ j, v63 (ix2 (0 : Fin 1) j) = w.b5 j)
    (hW6 : ∀ l j, v70 (ix2 l j) = w.W6 l j) (j : Fin 256) :
    k0_pay5 (F := Ideal) v4 v35 v36 v39 v46 v49 v56 v59 v63 v70 (ix2 p j) = ∑ l : Fin 256, trunk5 w pts l * w.W6 l j := by
  unfold k0_pay5
  refine prod_apply dot_S4096x256_S256x256_S4096x256_1_0_0_1_n_n rfl _ v70 _ p (trunk5 w pts) w.W6 (fun l => ?_) hW6 j
  rw [truncf_apply]
  refine relu_apply _ p _ (fun j' => ?_) l
  refine affine2_apply dot_S4096x63_S63x256_S4096x256_1_0_0_1_n_n rfl dot_S4096x256_S256x256_S4096x256_1_0_0_1_n_n rfl v4 v56 _ v59 v63 _ _ _ _ p pts (trunk4 w pts) _ _ w.b5 h4
    (fun l' => ?_) hW5a hW5b hb5 j'
  rw [truncf_apply, trunk4_eq]
  refine layer_apply dot_S4096x256_S256x256_S4096x256_1_0_0_1_n_n rfl _ v46 v49 _ _ _ p _ w.W4 w.b4 (fun l'' => ?_) hW4 hb4 l'
  rw [truncf_apply]
  exact layer_apply dot_S4096x256_S256x256_S4096x256_1_0_0_1_n_n rfl v35 v36 v39 _ _ _ p _ w.W3 w.b3 h35 hW3 hb3 l''

/-- The seventh layer's bias and max and the eighth layer, at row p: the trunk's last output. -/
theorem last2_apply (v72 : FVec Ideal S4096x256 .f32) (v73 : FVec Ideal S1x256 .f32) (v80 : FVec Ideal S256x256 .bf16)
    (v83 : FVec Ideal S1x256 .f32)
    (h72 : ∀ j, v72 (ix2 p j) = ∑ l : Fin 256, trunk5 w pts l * w.W6 l j)
    (hb6 : ∀ j, v73 (ix2 (0 : Fin 1) j) = w.b6 j)
    (hW7 : ∀ l j, v80 (ix2 l j) = w.W7 l j) (hb7 : ∀ j, v83 (ix2 (0 : Fin 1) j) = w.b7 j) (j : Fin 256) :
    k0_pay6 (F := Ideal) v72 v73 v80 v83 (ix2 p j) = trunk7 w pts j := by
  unfold k0_pay6
  rw [trunk7_eq]
  refine layer_apply dot_S4096x256_S256x256_S4096x256_1_0_0_1_n_n rfl _ v80 v83 _ _ _ p _ w.W7 w.b7 (fun l => ?_) hW7 hb7 j
  rw [truncf_apply]
  refine relu_apply _ p _ (fun j' => ?_) l
  rw [addf_apply, h72, bias_apply v73 _ _ p w.b6 hb6 j']
  rfl

/-- The density head at row p. -/
theorem density_apply (v72 : FVec Ideal S4096x256 .f32) (v73 : FVec Ideal S1x256 .f32) (v80 : FVec Ideal S256x256 .bf16)
    (v83 : FVec Ideal S1x256 .f32) (v90 : FVec Ideal S1x256 .f32) (v96 : FVec Ideal S1x1 .f32)
    (h72 : ∀ j, v72 (ix2 p j) = ∑ l : Fin 256, trunk5 w pts l * w.W6 l j)
    (hb6 : ∀ j, v73 (ix2 (0 : Fin 1) j) = w.b6 j)
    (hW7 : ∀ l j, v80 (ix2 l j) = w.W7 l j) (hb7 : ∀ j, v83 (ix2 (0 : Fin 1) j) = w.b7 j)
    (hWa : ∀ c, v90 (ix2 (0 : Fin 1) c) = w.Wa c 0) (hba : v96 (ix2 (0 : Fin 1) (0 : Fin 1)) = w.ba 0) (u : Fin 1) :
    k0_pay7 (F := Ideal) v72 v73 v80 v83 v90 v96 (ix2 p u) = alpha w pts := by
  unfold k0_pay7
  exact head_apply (k0_pay6 (F := Ideal) v72 v73 v80 v83) (shapeCast S1x256 v90 _) (shapeCast S1x1 v96 _) _ _ _ _ _ _ p
    (trunk7 w pts) (fun c => w.Wa c 0) (w.ba 0) (last2_apply w pts p v72 v73 v80 v83 h72 hb6 hW7 hb7)
    (fun c => by rw [shapeCast_self]; exact hWa c) (by rw [shapeCast_self]; exact hba) u

/-- The feature map and its product with the colour branch's first 256 weight rows, at row p. -/
theorem feature_apply (v72 : FVec Ideal S4096x256 .f32) (v73 : FVec Ideal S1x256 .f32) (v80 : FVec Ideal S256x256 .bf16)
    (v83 : FVec Ideal S1x256 .f32) (v100 : FVec Ideal S256x256 .bf16) (v103 : FVec Ideal S1x256 .f32)
    (v108 : FVec Ideal S256x128 .bf16)
    (h72 : ∀ j, v72 (ix2 p j) = ∑ l : Fin 256, trunk5 w pts l * w.W6 l j)
    (hb6 : ∀ j, v73 (ix2 (0 : Fin 1) j) = w.b6 j)
    (hW7 : ∀ l j, v80 (ix2 l j) = w.W7 l j) (hb7 : ∀ j, v83 (ix2 (0 : Fin 1) j) = w.b7 j)
    (hWf : ∀ l j, v100 (ix2 l j) = w.Wf l j) (hbf : ∀ j, v103 (ix2 (0 : Fin 1) j) = w.bf j)
    (hWvf : ∀ l j, v108 (ix2 l j) = topRows (A := 256) (B := 63) rfl w.Wv l j) (j : Fin 128) :
    k0_pay8 (F := Ideal) v72 v73 v80 v83 v100 v103 v108 (ix2 p j)
      = ∑ l : Fin 256, feature w pts l * topRows (A := 256) (B := 63) rfl w.Wv l j := by
  unfold k0_pay8
  refine prod_apply dot_S4096x256_S256x128_S4096x128_1_0_0_1_n_n rfl _ v108 _ p (feature w pts) _ (fun l => ?_) hWvf j
  rw [truncf_apply]
  refine affine_apply dot_S4096x256_S256x256_S4096x256_1_0_0_1_n_n rfl _ v100 v103 _ _ _ p (trunk7 w pts) w.Wf w.bf (fun l' => ?_) hWf hbf l
  rw [truncf_apply]
  exact last2_apply w pts p v72 v73 v80 v83 h72 hb6 hW7 hb7 l'

/-- The stored block at row p: the colour branch's hidden vector, the three colour heads, and the density. -/
theorem store_apply (v5 : FVec Ideal S4096x63 .bf16) (v99 : FVec Ideal S4096x1 .f32) (v110 : FVec Ideal S4096x128 .f32)
    (v111 : FVec Ideal S63x128 .bf16) (v115 : FVec Ideal S1x128 .f32) (v121 : FVec Ideal S3x128 .f32)
    (v123 : FVec Ideal S1x3 .f32)
    (h5 : ∀ l, v5 (ix2 p l) = views l) (h99 : v99 (ix2 p (0 : Fin 1)) = alpha w pts)
    (h110 : ∀ j, v110 (ix2 p j) = ∑ l : Fin 256, feature w pts l * topRows (A := 256) (B := 63) rfl w.Wv l j)
    (hWvv : ∀ l j, v111 (ix2 l j) = botRows (A := 256) (B := 63) rfl w.Wv l j)
    (hbv : ∀ j, v115 (ix2 (0 : Fin 1) j) = w.bv j)
    (hWr : ∀ (g : Fin 3) (c : Fin 128), v121 (ix2 g c) = w.Wr c g) (hbr : ∀ g : Fin 3, v123 (ix2 (0 : Fin 1) g) = w.br g)
    (g : Fin 4) :
    k0_pay1 (F := Ideal) v5 v99 v110 v111 v115 v121 v123 (ix2 p g) = out w pts views g := by
  have hid : ∀ j : Fin 128,
      maximumf (addf (addf v110 (matmul dot_S4096x63_S63x128_S4096x128_1_0_0_1_n_n none v5 (shapeCast S63x128 v111 shapeCasts_S63x128_S63x128)
            (constant (F := Ideal) S4096x128 .f32 0x00000000#32)))
          (broadcastTo S4096x128 (shapeCast S1x128 v115 shapeCasts_S1x128_S1x128) broadcasts_S1x128_S4096x128))
        (broadcast S4096x128 (Scalar.ofBits (F := Ideal) .f32 0x00000000#32)) (ix2 p j) = hidden w pts views j := by
    intro j
    refine relu_apply _ p _ (fun j' => ?_) j
    rw [addf_apply, addf_apply, h110, prod_apply dot_S4096x63_S63x128_S4096x128_1_0_0_1_n_n rfl v5 v111 _ p views _ h5 hWvv j',
      bias_apply v115 _ _ p w.bv hbv j']
    rfl
  unfold k0_pay1
  refine concat4_apply _ _ _ _ _ p g (out w pts views) ?_ ?_ ?_ h99
  · refine (head_apply _ _ _ _ _ _ _ _ _ p (hidden w pts views) (fun c => w.Wr c 0) (w.br 0) hid (fun c => ?_) ?_ 0).trans ?_
    · refine (slice2_axis0_apply 0 _ _ (0 : Fin 1) c (0 : Fin 3) rfl).trans ?_
      rw [shapeCast_self]; exact hWr 0 c
    · refine (slice2_axis1_apply 0 _ _ (0 : Fin 1) (0 : Fin 1) (0 : Fin 3) rfl).trans ?_
      rw [shapeCast_self]; exact hbr 0
    · rfl
  · refine (head_apply _ _ _ _ _ _ _ _ _ p (hidden w pts views) (fun c => w.Wr c 1) (w.br 1) hid (fun c => ?_) ?_ 0).trans ?_
    · refine (slice2_axis0_apply 1 _ _ (0 : Fin 1) c (1 : Fin 3) rfl).trans ?_
      rw [shapeCast_self]; exact hWr 1 c
    · refine (slice2_axis1_apply 1 _ _ (0 : Fin 1) (0 : Fin 1) (1 : Fin 3) rfl).trans ?_
      rw [shapeCast_self]; exact hbr 1
    · rfl
  · refine (head_apply _ _ _ _ _ _ _ _ _ p (hidden w pts views) (fun c => w.Wr c 2) (w.br 2) hid (fun c => ?_) ?_ 0).trans ?_
    · refine (slice2_axis0_apply 2 _ _ (0 : Fin 1) c (2 : Fin 3) rfl).trans ?_
      rw [shapeCast_self]; exact hWr 2 c
    · refine (slice2_axis1_apply 2 _ _ (0 : Fin 1) (0 : Fin 1) (2 : Fin 3) rfl).trans ?_
      rw [shapeCast_self]; exact hbr 2
    · rfl

end Cert.KerPayload

end
-- ==== Proof.KerValue.lean ====
/-
  The kernel's result array after the run is the specification's.

  At a grid point t the body stores one block of 4096 rows and 4 columns; row p of it is the network on row p of the
  point and view blocks, which are rows 4096·t + p of the input's two column ranges, with the weight and bias blocks
  holding the argument arrays' entries. So what point t writes back is block t of the specification's array. The 32
  blocks tile the 131072 rows (row r lies in block r / 4096), so the array ends holding the specification everywhere,
  and the run leaves the argument arrays as they were.
-/
import proofs.«177188_j14285061226818_2_alg».proof.Proof.KernelIdealFrameP
import proofs.«177188_j14285061226818_2_alg».proof.Proof.KerBlocks
import proofs.«177188_j14285061226818_2_alg».proof.Proof.KerPayload
import proofs.«177188_j14285061226818_2_alg».proof.Proof.Spec
import Idealize.ShloMosaic.Lib.Pipeline.Value

noncomputable section

open scoped BigOperators

namespace Cert.KerValue

open Idealize.ShloMosaic Idealize.ShloMosaic.TcCoe Idealize.ShloMosaic.ValueIdx Idealize.SL.Sem
open Cert.KernelIdeal Cert.KernelIdeal.Gen Cert.KernelIdeal.GenP Cert.Spec Cert.KerBlocks Cert.KerPayload
open Idealize.ShloMosaic.Pipeline (Dat)

theorem hz : (![0, 0] : Fin 2 → Nat) = fun _ => 0 := funext fun a => by fin_cases a <;> rfl

/-- The stored block at row p, for any blocks whose row p (points, views) and whose entries (weights, biases) are
    the given row vectors and parameters: the network's output on that row. -/
theorem stored_apply (w : Weights) (pts views : Fin 63 → EReal) (p : Fin 4096) (x0 : FVec Ideal S4096x63 .f32) (x1 : FVec Ideal S4096x63 .f32) (x2 : FVec Ideal S63x256 .bf16) (x3 : FVec Ideal S1x256 .f32) (x4 : FVec Ideal S256x256 .bf16) (x5 : FVec Ideal S1x256 .f32) (x6 : FVec Ideal S256x256 .bf16) (x7 : FVec Ideal S1x256 .f32) (x8 : FVec Ideal S256x256 .bf16) (x9 : FVec Ideal S1x256 .f32) (x10 : FVec Ideal S256x256 .bf16) (x11 : FVec Ideal S1x256 .f32) (x12 : FVec Ideal S63x256 .bf16) (x13 : FVec Ideal S256x256 .bf16) (x14 : FVec Ideal S1x256 .f32) (x15 : FVec Ideal S256x256 .bf16) (x16 : FVec Ideal S1x256 .f32) (x17 : FVec Ideal S256x256 .bf16) (x18 : FVec Ideal S1x256 .f32) (x19 : FVec Ideal S256x256 .bf16) (x20 : FVec Ideal S1x256 .f32) (x21 : FVec Ideal S1x256 .f32) (x22 : FVec Ideal S1x1 .f32) (x23 : FVec Ideal S256x128 .bf16) (x24 : FVec Ideal S63x128 .bf16) (x25 : FVec Ideal S1x128 .f32) (x26 : FVec Ideal S3x128 .f32) (x27 : FVec Ideal S1x3 .f32)
    (h0 : ∀ l, x0 (ix2 p l) = pts l) (h1 : ∀ l, x1 (ix2 p l) = views l)
    (h2 : ∀ l j, x2 (ix2 l j) = w.W0 l j) (h3 : ∀ j, x3 (ix2 (0 : Fin 1) j) = w.b0 j)
    (h4 : ∀ l j, x4 (ix2 l j) = w.W1 l j) (h5 : ∀ j, x5 (ix2 (0 : Fin 1) j) = w.b1 j)
    (h6 : ∀ l j, x6 (ix2 l j) = w.W2 l j) (h7 : ∀ j, x7 (ix2 (0 : Fin 1) j) = w.b2 j)
    (h8 : ∀ l j, x8 (ix2 l j) = w.W3 l j) (h9 : ∀ j, x9 (ix2 (0 : Fin 1) j) = w.b3 j)
    (h10 : ∀ l j, x10 (ix2 l j) = w.W4 l j) (h11 : ∀ j, x11 (ix2 (0 : Fin 1) j) = w.b4 j)
    (h12 : ∀ l j, x12 (ix2 l j) = topRows (A := 63) (B := 256) rfl w.W5 l j)
    (h13 : ∀ l j, x13 (ix2 l j) = botRows (A := 63) (B := 256) rfl w.W5 l j)
    (h14 : ∀ j, x14 (ix2 (0 : Fin 1) j) = w.b5 j)
    (h15 : ∀ l j, x15 (ix2 l j) = w.W6 l j) (h16 : ∀ j, x16 (ix2 (0 : Fin 1) j) = w.b6 j)
    (h17 : ∀ l j, x17 (ix2 l j) = w.W7 l j) (h18 : ∀ j, x18 (ix2 (0 : Fin 1) j) = w.b7 j)
    (h19 : ∀ l j, x19 (ix2 l j) = w.Wf l j) (h20 : ∀ j, x20 (ix2 (0 : Fin 1) j) = w.bf j)
    (h21 : ∀ c, x21 (ix2 (0 : Fin 1) c) = w.Wa c 0) (h22 : x22 (ix2 (0 : Fin 1) (0 : Fin 1)) = w.ba 0)
    (h23 : ∀ l j, x23 (ix2 l j) = topRows (A := 256) (B := 63) rfl w.Wv l j)
    (h24 : ∀ l j, x24 (ix2 l j) = botRows (A := 256) (B := 63) rfl w.Wv l j)
    (h25 : ∀ j, x25 (ix2 (0 : Fin 1) j) = w.bv j)
    (h26 : ∀ (g : Fin 3) (c : Fin 128), x26 (ix2 g c) = w.Wr c g) (h27 : ∀ g : Fin 3, x27 (ix2 (0 : Fin 1) g) = w.br g)
    (g : Fin 4) :
    out0_28 (F := Ideal) x0 x1 x2 x3 x4 x5 x6 x7 x8 x9 x10 x11 x12 x13 x14 x15 x16 x17 x18 x19 x20 x21 x22 x23 x24 x25 x26 x27 (ix2 p g) = out w pts views g := by
  unfold out0_28
  rw [View.canon_unit_zero hz]
  simp only [View.ld_unit_zero (S := S4096x63) hz, View.ld_unit_zero (S := S63x256) hz, View.ld_unit_zero (S := S1x256) hz, View.ld_unit_zero (S := S256x256) hz, View.ld_unit_zero (S := S1x1) hz, View.ld_unit_zero (S := S256x128) hz, View.ld_unit_zero (S := S63x128) hz, View.ld_unit_zero (S := S1x128) hz, View.ld_unit_zero (S := S3x128) hz, View.ld_unit_zero (S := S1x3) hz]
  have hmid : ∀ j, k0_pay5 (F := Ideal) (k0_pay2 x0) (k0_pay4 x0 x2 x3 x4 x5 x6 x7) x8 x9 x10 x11 x12 x13 x14 x15 (ix2 p j)
      = ∑ l : Fin 256, trunk5 w pts l * w.W6 l j :=
    fun j => mid_apply w pts p (k0_pay2 x0) (k0_pay4 x0 x2 x3 x4 x5 x6 x7) x8 x9 x10 x11 x12 x13 x14 x15
      (narrow_apply p x0 pts h0) (first3_apply w pts p x0 x2 x3 x4 x5 x6 x7 h0 h2 h3 h4 h5 h6 h7) h8 h9 h10 h11 h12 h13 h14 h15 j
  exact store_apply w pts views p (k0_pay3 x1)
    (k0_pay7 (k0_pay5 (k0_pay2 x0) (k0_pay4 x0 x2 x3 x4 x5 x6 x7) x8 x9 x10 x11 x12 x13 x14 x15) x16 x17 x18 x21 x22)
    (k0_pay8 (k0_pay5 (k0_pay2 x0) (k0_pay4 x0 x2 x3 x4 x5 x6 x7) x8 x9 x10 x11 x12 x13 x14 x15) x16 x17 x18 x19 x20 x23)
    x24 x25 x26 x27
    (narrow_apply' p x1 views h1)
    (density_apply w pts p (k0_pay5 (F := Ideal) (k0_pay2 x0) (k0_pay4 x0 x2 x3 x4 x5 x6 x7) x8 x9 x10 x11 x12 x13 x14 x15) x16 x17 x18 x21 x22 hmid h16 h17 h18 h21 h22 0)
    (feature_apply w pts p (k0_pay5 (F := Ideal) (k0_pay2 x0) (k0_pay4 x0 x2 x3 x4 x5 x6 x7) x8 x9 x10 x11 x12 x13 x14 x15) x16 x17 x18 x19 x20 x23 hmid h16 h17 h18 h19 h20 h23)
    h24 h25 h26 h27 g

variable (m : (ℓ : Loc nD τ sig) → Buf (Elt Ideal) ℓ) (ρ : Dev nD → PrngReg)

/-- The specification's array on the launch contents of the arguments. -/
abbrev GM (c : Dev nD) : S131072x4.Idx → EReal := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))

/-- WHAT POINT t WRITES BACK is block t of the specification's array. -/
theorem flushed_eq (c : Dev nD) (t : Fin cfg0.N) :
    (dats m 0 c).flushed 28 t = ((cfg0.win 28).blk t).view.read (Elt Ideal) (GM m c) := by
  show (cfg0.win 28).cut (grid0.coords t) ((dats m 0 c).after 28 t) = _
  rw [after0_28]
  refine funext fun (y : S4096x4.Idx) => ?_
  obtain ⟨p, g, rfl⟩ : ∃ (p : Fin 4096) (g : Fin 4), y = ix2 p g := ⟨y 0, y 1, eq_ix2 y⟩
  obtain ⟨-, -, -, -, e0, e1⟩ := idx_rows t
  have hemb : ((cfg0.win 28).blk t).view.emb (ix2 p g) = ix2 (rowOf t p) g := by
    funext x; apply Fin.ext
    match x with
    | ⟨0, _⟩ => show win0_28.index t (0 : Fin 2) * 4096 + 1 * p.val = 4096 * t.val + p.val; omega
    | ⟨1, _⟩ => show win0_28.index t (1 : Fin 2) * 4 + 1 * g.val = g.val; omega
  show out0_28 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (ix2 p g) = GM m c (((cfg0.win 28).blk t).view.emb (ix2 p g))
  rw [hemb]
  exact stored_apply (wOfArgs (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) (ptsRow (m ((c : Thread nD τ).loc main_arg0)) (rowOf t p))
    (viewsRow (m ((c : Thread nD τ).loc main_arg0)) (rowOf t p)) p (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    (blk0 m c t p) (blk1 m c t p) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t 0) (blk23 m c t) (blk24 m c t) (blk25 m c t) (blk26 m c t) (blk27 m c t) g

/-- An index of the array is in point t's block iff each coordinate is in the block's range on its axis. -/
theorem mem_blk (t : Fin cfg0.N) (i : S131072x4.Idx) :
    i ∈ ((cfg0.win 28).blk t).view.set ↔ ∀ a : Fin 2, win0_28.index t a * S4096x4.size a ≤ (i a).val
      ∧ (i a).val < win0_28.index t a * S4096x4.size a + S4096x4.size a := by
  show i ∈ ((View.whole main_v32).slice (win0_28.rect t)).set ↔ _
  rw [View.set_slice_whole, Rect.mem_set_unit]
  exact Iff.rfl

/-- Every index of the result array is in some point's block: row r is in block r / 4096. -/
theorem cover (i : S131072x4.Idx) :
    ∃ t : Fin cfg0.N, (cfg0.win 28).flush t = true ∧ i ∈ ((cfg0.win 28).blk t).view.set := by
  have hi0 : (i 0).val < 131072 := (i 0).isLt
  have hi1 : (i 1).val < 4 := (i 1).isLt
  have hN : cfg0.N = 32 := N_0
  obtain ⟨t, ht⟩ : ∃ t : Fin cfg0.N, t.val = (i 0).val / 4096 := ⟨⟨(i 0).val / 4096, by omega⟩, rfl⟩
  obtain ⟨-, -, -, -, e0, e1⟩ := idx_rows t
  refine ⟨t, flush0_28 t, ?_⟩
  rw [mem_blk]
  intro a
  match a with
  | ⟨0, _⟩ =>
    show win0_28.index t (0 : Fin 2) * 4096 ≤ (i 0).val ∧ (i 0).val < win0_28.index t (0 : Fin 2) * 4096 + 4096
    omega
  | ⟨1, _⟩ =>
    show win0_28.index t (1 : Fin 2) * 4 ≤ (i 1).val ∧ (i 1).val < win0_28.index t (1 : Fin 2) * 4 + 4
    omega

/-- THE ARRAY after the run is the specification's. -/
theorem final (c : Dev nD) : (dats m 0 c).arrAt 28 cfg0.N = GM m c :=
  (dats m 0 c).arrAt_eq_of_cover 28 (GM m c) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v32) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨((h c).1 28).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c)⟩)
    (run_main m ρ)

end Cert.KerValue

end
-- ==== Proof.LibConcat2.lean ====
/-
  Two matrices joined along one axis, read at an index given by coordinates; and a sum over a range cut in two.

  Two pieces [R, C₁] and [R, C₂] laid side by side along axis 1 read, at (r, g), the first piece at (r, g) when
  column g is one of its own, and the second at (r, g − C₁) otherwise. Two pieces [R₁, C] and [R₂, C] stacked
  along axis 0 read, at (r, g), the first at (r, g) when row r is one of its own, and the second at (r − R₁, g)
  otherwise. The position inside the piece is given as a coordinate of its own with the equation that ties it to
  the joined coordinate, so that no subtraction appears in a statement.

  A sum over a + b positions is the sum over the first a plus the sum over the last b.
-/
import Idealize.ShloMosaic.Lib.Pipeline.Value
import Idealize.ShloMosaic.Lib.ValueIdx

open scoped BigOperators

namespace Cert.LibConcat2

open Idealize.ShloMosaic Idealize.ShloMosaic.ValueIdx

variable {α : Type}

/-- Side by side, a column of the first piece. -/
theorem cols_left {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₁) (hg : g'.val = g.val) :
    concatenate ⟨2, ![R, C]⟩ 1 [⟨⟨2, ![R, C₁]⟩, a⟩, ⟨⟨2, ![R, C₂]⟩, b⟩] h (ix2 r g) = a (ix2 r g') :=
  concatenate_pair_apply_left 1 a b h (ix2 r g) rfl (ix2 r g') fun ax => by
    match ax with
    | ⟨0, _⟩ => rfl
    | ⟨1, _⟩ => exact hg

/-- Side by side, a column of the second piece. -/
theorem cols_right {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₂) (hg : g'.val + C₁ = g.val) :
    concatenate ⟨2, ![R, C]⟩ 1 [⟨⟨2, ![R, C₁]⟩, a⟩, ⟨⟨2, ![R, C₂]⟩, b⟩] h (ix2 r g) = b (ix2 r g') :=
  concatenate_pair_apply_right 1 a b h (ix2 r g) rfl rfl (ix2 r g')
    (fun ax hne => by
      match ax with
      | ⟨0, _⟩ => rfl
      | ⟨1, _⟩ => exact absurd rfl hne)
    hg

/-- Stacked, a row of the first piece. -/
theorem rows_left {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₁) (hr : r'.val = r.val) (g : Fin C) :
    concatenate ⟨2, ![R, C]⟩ 0 [⟨⟨2, ![R₁, C]⟩, a⟩, ⟨⟨2, ![R₂, C]⟩, b⟩] h (ix2 r g) = a (ix2 r' g) :=
  concatenate_pair_apply_left 0 a b h (ix2 r g) rfl (ix2 r' g) fun ax => by
    match ax with
    | ⟨0, _⟩ => exact hr
    | ⟨1, _⟩ => rfl

/-- Stacked, a row of the second piece. -/
theorem rows_right {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₂) (hr : r'.val + R₁ = r.val) (g : Fin C) :
    concatenate ⟨2, ![R, C]⟩ 0 [⟨⟨2, ![R₁, C]⟩, a⟩, ⟨⟨2, ![R₂, C]⟩, b⟩] h (ix2 r g) = b (ix2 r' g) :=
  concatenate_pair_apply_right 0 a b h (ix2 r g) rfl rfl (ix2 r' g)
    (fun ax hne => by
      match ax with
      | ⟨0, _⟩ => exact absurd rfl hne
      | ⟨1, _⟩ => rfl)
    hr

/-- A sum over a + b positions, cut after the first a. -/
theorem sum_two_blocks {M : Type*} [AddCommMonoid M] {a b n : ℕ} (hn : a + b = n) (f : Fin n → M) :
    ∑ l : Fin n, f l
      = ∑ l : Fin a, f ⟨l.val, by have := l.isLt; omega⟩ + ∑ l : Fin b, f ⟨a + l.val, by have := l.isLt; omega⟩ := by
  subst hn
  exact Fin.sum_univ_add f

end Cert.LibConcat2
-- ==== Proof.LibRefLayer.lean ====
/-
  A host matrix through one affine map and max(·, 0), read at a row.

  The matrix is N × K; the weight is K × J and the bias a length-J vector laid over the N rows (first as a 1 × J row,
  then over the rows). At row n and output j the host's matrix product plus the bias is Σ_l h[n, l] · W[l, j] + b[j]; it
  depends on row n of h only. When h is two matrices laid side by side (N × A then N × B), the sum over the A + B joined
  positions is the sum over the first matrix's row plus the sum over the second's, against the weight's first A and last
  B rows.

  As for the blocks of a kernel, every statement takes the row's contents as a hypothesis, so that a chain of layers is
  proved by handing each layer the previous one's statement.
-/
import Idealize.ShloMosaic.Lib.ValueLayout
import Idealize.ShloMosaic.Lib.Pipeline.Value
import proofs.«177188_j14285061226818_2_alg».proof.Proof.LibPlainDot
import proofs.«177188_j14285061226818_2_alg».proof.Proof.LibConcat2
import proofs.«177188_j14285061226818_2_alg».proof.Proof.Spec

noncomputable section

open scoped BigOperators

namespace Cert.LibRefLayer

open Idealize.ShloMosaic Idealize.ShloMosaic.ValueIdx Cert.Spec

variable {N K J : ℕ}

/-- The host's product, read at (n, j), from row n of the left operand. -/
theorem prod_apply (D : DotDims ⟨2, ![N, K]⟩ ⟨2, ![K, J]⟩ ⟨2, ![N, J]⟩) (hD : D = DotDims.plain N K J)
    (h : FVec Ideal ⟨2, ![N, K]⟩ .f32) (Wm : FVec Ideal ⟨2, ![K, J]⟩ .f32)
    (n : Fin N) (hrow : Fin K → EReal) (W : Fin K → Fin J → EReal)
    (hh : ∀ l, h (ix2 n l) = hrow l) (hWm : ∀ l j, Wm (ix2 l j) = W l j) (j : Fin J) :
    Host.dotGeneral (F := Ideal) D none h Wm (ix2 n j) = ∑ l : Fin K, hrow l * W l j := by
  subst hD
  unfold Host.dotGeneral
  refine (LibPlainDot.dotGeneral_apply none _ h Wm n j).trans ?_
  exact Finset.sum_congr rfl fun l _ => by rw [hh, hWm]

/-- A length-J vector made a 1 × J row and laid over N rows, read at (n, j). -/
theorem bias_apply (bvec : FVec Ideal ⟨1, ![J]⟩ .f32)
    (hb1 : (⟨1, ![J]⟩ : Shape).BroadcastsInDim ⟨2, ![1, J]⟩ ![1])
    (hb2 : (⟨2, ![1, J]⟩ : Shape).BroadcastsInDim ⟨2, ![N, J]⟩ ![0, 1])
    (n : Fin N) (b : Fin J → EReal) (hbv : ∀ j, bvec (ix1 j) = b j) (j : Fin J) :
    broadcastInDim ⟨2, ![N, J]⟩ ![0, 1] hb2 (broadcastInDim ⟨2, ![1, J]⟩ ![1] hb1 bvec) (ix2 n j) = b j := by
  refine (broadcastInDim_apply _ hb2 _ (ix2 n j) (ix2 (0 : Fin 1) j) (fun a => ?_)).trans
    ((broadcastInDim_apply _ hb1 bvec (ix2 (0 : Fin 1) j) (ix1 j) (fun a => ?_)).trans (hbv j))
  · match a with
    | ⟨0, _⟩ => show 0 = if (1 : ℕ) = 1 then 0 else n.val; rw [if_pos rfl]
    | ⟨1, _⟩ =>
      show j.val = if J = 1 then 0 else j.val
      split
      · have := j.isLt; omega
      · rfl
  · match a with
    | ⟨0, _⟩ =>
      show j.val = if J = 1 then 0 else j.val
      split
      · have := j.isLt; omega
      · rfl

/-- max(·, 0) against the scalar zero laid over the matrix, read at an entry whose value is known. -/
theorem relu_apply (v : FVec Ideal ⟨2, ![N, J]⟩ .f32)
    (hb0 : (⟨0, ![]⟩ : Shape).BroadcastsInDim ⟨2, ![N, J]⟩ ![])
    (n : Fin N) (r : Fin J → EReal) (hv : ∀ j, v (ix2 n j) = r j) (j : Fin J) :
    maximumf v (broadcastInDim ⟨2, ![N, J]⟩ ![] hb0 (constant (F := Ideal) ⟨0, ![]⟩ .f32 0x00000000#32)) (ix2 n j)
      = relu r j := by
  rw [maximumf_apply, hv, broadcastInDim_apply ![] hb0 _ (ix2 n j) ix0 (fun a => a.elim0), constant_apply,
    Ideal.ofBits_zero_f32]
  rfl

/-- The host's affine map, read at (n, j). -/
theorem affine_apply (D : DotDims ⟨2, ![N, K]⟩ ⟨2, ![K, J]⟩ ⟨2, ![N, J]⟩) (hD : D = DotDims.plain N K J)
    (h : FVec Ideal ⟨2, ![N, K]⟩ .f32) (Wm : FVec Ideal ⟨2, ![K, J]⟩ .f32) (bvec : FVec Ideal ⟨1, ![J]⟩ .f32)
    (hb1 : (⟨1, ![J]⟩ : Shape).BroadcastsInDim ⟨2, ![1, J]⟩ ![1])
    (hb2 : (⟨2, ![1, J]⟩ : Shape).BroadcastsInDim ⟨2, ![N, J]⟩ ![0, 1])
    (n : Fin N) (hrow : Fin K → EReal) (W : Fin K → Fin J → EReal) (b : Fin J → EReal)
    (hh : ∀ l, h (ix2 n l) = hrow l) (hWm : ∀ l j, Wm (ix2 l j) = W l j) (hbv : ∀ j, bvec (ix1 j) = b j) (j : Fin J) :
    addf (Host.dotGeneral (F := Ideal) D none h Wm)
        (broadcastInDim ⟨2, ![N, J]⟩ ![0, 1] hb2 (broadcastInDim ⟨2, ![1, J]⟩ ![1] hb1 bvec)) (ix2 n j)
      = dense hrow W b j := by
  rw [addf_apply, prod_apply D hD h Wm n hrow W hh hWm j, bias_apply bvec hb1 hb2 n b hbv j]
  rfl

/-- One host layer — affine map, then max(·, 0) — read at (n, j). -/
theorem layer_apply (D : DotDims ⟨2, ![N, K]⟩ ⟨2, ![K, J]⟩ ⟨2, ![N, J]⟩) (hD : D = DotDims.plain N K J)
    (h : FVec Ideal ⟨2, ![N, K]⟩ .f32) (Wm : FVec Ideal ⟨2, ![K, J]⟩ .f32) (bvec : FVec Ideal ⟨1, ![J]⟩ .f32)
    (hb1 : (⟨1, ![J]⟩ : Shape).BroadcastsInDim ⟨2, ![1, J]⟩ ![1])
    (hb2 : (⟨2, ![1, J]⟩ : Shape).BroadcastsInDim ⟨2, ![N, J]⟩ ![0, 1])
    (hb0 : (⟨0, ![]⟩ : Shape).BroadcastsInDim ⟨2, ![N, J]⟩ ![])
    (n : Fin N) (hrow : Fin K → EReal) (W : Fin K → Fin J → EReal) (b : Fin J → EReal)
    (hh : ∀ l, h (ix2 n l) = hrow l) (hWm : ∀ l j, Wm (ix2 l j) = W l j) (hbv : ∀ j, bvec (ix1 j) = b j) (j : Fin J) :
    maximumf (addf (Host.dotGeneral (F := Ideal) D none h Wm)
          (broadcastInDim ⟨2, ![N, J]⟩ ![0, 1] hb2 (broadcastInDim ⟨2, ![1, J]⟩ ![1] hb1 bvec)))
        (broadcastInDim ⟨2, ![N, J]⟩ ![] hb0 (constant (F := Ideal) ⟨0, ![]⟩ .f32 0x00000000#32)) (ix2 n j)
      = relu (dense hrow W b) j :=
  relu_apply _ hb0 n _ (fun j' => affine_apply D hD h Wm bvec hb1 hb2 n hrow W b hh hWm hbv j') j

/-- The host's affine map of two matrices laid side by side, read at (n, j): the two-block affine map of their rows
    against the weight's first A and last B rows. -/
theorem affine_cat_apply {A B C : ℕ} (hC : A + B = C)
    (D : DotDims ⟨2, ![N, C]⟩ ⟨2, ![C, J]⟩ ⟨2, ![N, J]⟩) (hD : D = DotDims.plain N C J)
    (a : FVec Ideal ⟨2, ![N, A]⟩ .f32) (b : FVec Ideal ⟨2, ![N, B]⟩ .f32)
    (hc : Shape.Concatenates [(⟨2, ![N, A]⟩ : Shape), ⟨2, ![N, B]⟩] ⟨2, ![N, C]⟩ 1)
    (Wm : FVec Ideal ⟨2, ![C, J]⟩ .f32) (bvec : FVec Ideal ⟨1, ![J]⟩ .f32)
    (hb1 : (⟨1, ![J]⟩ : Shape).BroadcastsInDim ⟨2, ![1, J]⟩ ![1])
    (hb2 : (⟨2, ![1, J]⟩ : Shape).BroadcastsInDim ⟨2, ![N, J]⟩ ![0, 1])
    (n : Fin N) (urow : Fin A → EReal) (vrow : Fin B → EReal) (W : Fin C → Fin J → EReal) (bb : Fin J → EReal)
    (hu : ∀ l, a (ix2 n l) = urow l) (hv : ∀ l, b (ix2 n l) = vrow l)
    (hWm : ∀ l j, Wm (ix2 l j) = W l j) (hbv : ∀ j, bvec (ix1 j) = bb j) (j : Fin J) :
    addf (Host.dotGeneral (F := Ideal) D none
          (concatenate ⟨2, ![N, C]⟩ 1 [⟨⟨2, ![N, A]⟩, a⟩, ⟨⟨2, ![N, B]⟩, b⟩] hc) Wm)
        (broadcastInDim ⟨2, ![N, J]⟩ ![0, 1] hb2 (broadcastInDim ⟨2, ![1, J]⟩ ![1] hb1 bvec)) (ix2 n j)
      = dense2 urow vrow (topRows hC W) (botRows hC W) bb j := by
  rw [affine_apply D hD _ Wm bvec hb1 hb2 n
    (fun l => concatenate ⟨2, ![N, C]⟩ 1 [⟨⟨2, ![N, A]⟩, a⟩, ⟨⟨2, ![N, B]⟩, b⟩] hc (ix2 n l)) W bb (fun _ => rfl) hWm hbv j]
  refine congrFun (dense_cat hC _ urow vrow W bb (fun l => ?_) (fun l => ?_)) j
  · exact (LibConcat2.cols_left a b hc n _ l rfl).trans (hu l)
  · exact (LibConcat2.cols_right a b hc n _ l (Nat.add_comm _ _)).trans (hv l)

end Cert.LibRefLayer

end
-- ==== Proof.RefValue.lean ====
/-
  The reference's result at row n is the network on row n of the input.

  The reference computes whole arrays, one operation at a time: the two column ranges of the input, then for each
  layer a matrix product, the bias laid over the rows, a sum, and max against zero. At row n every one of these depends
  on row n of what came before only, so the stages are read one after another at a fixed row n, each handed the
  previous stage's statement. The two places where two arrays are laid side by side before a product (the point
  features in front of the fifth layer's output; the feature in front of the view features) are where the sum over the
  joined positions is cut in two. The result's four columns are the three colour outputs followed by the density.
-/
import proofs.«177188_j14285061226818_2_alg».proof.Proof.Gen.ReferenceIdeal.Read
import proofs.«177188_j14285061226818_2_alg».proof.Proof.LibRefLayer
import proofs.«177188_j14285061226818_2_alg».proof.Proof.LibConcat2
import proofs.«177188_j14285061226818_2_alg».proof.Proof.Spec

noncomputable section

open scoped BigOperators

namespace Cert.RefValue

open Idealize.ShloMosaic Idealize.ShloMosaic.ValueIdx Cert.ReferenceIdeal Cert.ReferenceIdeal.Read Cert.Spec

variable (x0 : FVec Ideal S131072x126 .f32) (x1 : FVec Ideal S63x256 .f32) (x2 : FVec Ideal S256 .f32) (x3 : FVec Ideal S256x256 .f32) (x4 : FVec Ideal S256 .f32) (x5 : FVec Ideal S256x256 .f32) (x6 : FVec Ideal S256 .f32) (x7 : FVec Ideal S256x256 .f32) (x8 : FVec Ideal S256 .f32) (x9 : FVec Ideal S256x256 .f32) (x10 : FVec Ideal S256 .f32) (x11 : FVec Ideal S319x256 .f32) (x12 : FVec Ideal S256 .f32) (x13 : FVec Ideal S256x256 .f32) (x14 : FVec Ideal S256 .f32) (x15 : FVec Ideal S256x256 .f32) (x16 : FVec Ideal S256 .f32) (x17 : FVec Ideal S256x256 .f32) (x18 : FVec Ideal S256 .f32) (x19 : FVec Ideal S256x1 .f32) (x20 : FVec Ideal S1 .f32) (x21 : FVec Ideal S319x128 .f32) (x22 : FVec Ideal S128 .f32) (x23 : FVec Ideal S128x3 .f32) (x24 : FVec Ideal S3 .f32) (n : Fin 131072)

/-- The trunk at row n after its first map, …, its eighth map, on the parameters read off the argument arrays. -/
def t0 : Fin 256 → EReal := relu (dense (ptsRow x0 n) (wOfArgs x1 x2 x3 x4 x5 x6 x7 x8 x9 x10 x11 x12 x13 x14 x15 x16 x17 x18 x19 x20 x21 x22 x23 x24).W0 (wOfArgs x1 x2 x3 x4 x5 x6 x7 x8 x9 x10 x11 x12 x13 x14 x15 x16 x17 x18 x19 x20 x21 x22 x23 x24).b0)
def t1 : Fin 256 → EReal := relu (dense (t0 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W1 (wOfArgs x1 x2 x3 x4 x5 x6 x7 x8 x9 x10 x11 x12 x13 x14 x15 x16 x17 x18 x19 x20 x21 x22 x23 x24).b1)
def t2 : Fin 256 → EReal := relu (dense (t1 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W2 (wOfArgs x1 x2 x3 x4 x5 x6 x7 x8 x9 x10 x11 x12 x13 x14 x15 x16 x17 x18 x19 x20 x21 x22 x23 x24).b2)
def t3 : Fin 256 → EReal := relu (dense (t2 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W3 (wOfArgs x1 x2 x3 x4 x5 x6 x7 x8 x9 x10 x11 x12 x13 x14 x15 x16 x17 x18 x19 x20 x21 x22 x23 x24).b3)
def t4 : Fin 256 → EReal := relu (dense (t3 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W4 (wOfArgs x1 x2 x3 x4 x5 x6 x7 x8 x9 x10 x11 x12 x13 x14 x15 x16 x17 x18 x19 x20 x21 x22 x23 x24).b4)
def t5 : Fin 256 → EReal :=
  relu (dense2 (ptsRow x0 n) (t4 x0 x1 x2 x3 x4 x5 x6 x7 x8 x9 x10 x11 x12 x13 x14 x15 x16 x17 x18 x19 x20 x21 x22 x23 x24 n) (topRows (A := 63) (B := 256) rfl (wOfArgs x1 x2 x3 x4 x5 x6 x7 x8 x9 x10 x11 x12 x13 x14 x15 x16 x17 x18 x19 x20 x21 x22 x23 x24).W5)
    (botRows (A := 63) (B := 256) rfl (wOfArgs x1 x2 x3 x4 x5 x6 x7 x8 x9 x10 x11 x12 x13 x14 x15 x16 x17 x18 x19 x20 x21 x22 x23 x24).W5) (wOfArgs x1 x2 x3 x4 x5 x6 x7 x8 x9 x10 x11 x12 x13 x14 x15 x16 x17 x18 x19 x20 x21 x22 x23 x24).b5)
def t6 : Fin 256 → EReal := relu (dense (t5 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W6 (wOfArgs x1 x2 x3 x4 x5 x6 x7 x8 x9 x10 x11 x12 x13 x14 x15 x16 x17 x18 x19 x20 x21 x22 x23 x24).b6)
def t7 : Fin 256 → EReal := relu (dense (t6 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W7 (wOfArgs x1 x2 x3 x4 x5 x6 x7 x8 x9 x10 x11 x12 x13 x14 x15 x16 x17 x18 x19 x20 x21 x22 x23 x24).b7)

theorem t4_eq : t4 x0 x1 x2 x3 x4 x5 x6 x7 x8 x9 x10 x11 x12 x13 x14 x15 x16 x17 x18 x19 x20 x21 x22 x23 x24 n = trunk4 (wOfArgs x1 x2 x3 x4 x5 x6 x7 x8 x9 x10 x11 x12 x13 x14 x15 x16 x17 x18 x19 x20 x21 x22 x23 x24) (ptsRow x0 n) := rfl
theorem t7_eq : t7 x0 x1 x2 x3 x4 x5 x6 x7 x8 x9 x10 x11 x12 x13 x14 x15 x16 x17 x18 x19 x20 x21 x22 x23 x24 n = trunk7 (wOfArgs x1 x2 x3 x4 x5 x6 x7 x8 x9 x10 x11 x12 x13 x14 x15 x16 x17 x18 x19 x20 x21 x22 x23 x24) (ptsRow x0 n) := rfl

/-- Columns 0 … 62 of the input at row n. -/
theorem pts_apply (l : Fin 63) : val_main_v0 (F := Ideal) x0 (ix2 n l) = ptsRow x0 n l := by
  unfold val_main_v0
  exact slice2_axis1_apply 0 x0 _ n l ⟨l.val, by have := l.isLt; omega⟩ (Nat.zero_add _).symm

/-- Columns 63 … 125 of the input at row n. -/
theorem views_apply (l : Fin 63) : val_main_v1 (F := Ideal) x0 (ix2 n l) = viewsRow x0 n l := by
  unfold val_main_v1
  exact slice2_axis1_apply 63 x0 _ n l ⟨63 + l.val, by have := l.isLt; omega⟩ rfl

theorem t0_apply (j : Fin 256) :
    val_main_v6 (F := Ideal) x0 x1 x2 (ix2 n j) = t0 x0 x1 x2 x3 x4 x5 x6 x7 x8 x9 x10 x11 x12 x13 x14 x15 x16 x17 x18 x19 x20 x21 x22 x23 x24 n j := by
  unfold val_main_v6 val_main_v5 val_main_v2 val_main_v4 val_main_v3 val_main_call0_v0 val_main_call0_cst
  exact LibRefLayer.layer_apply dot_S131072x63_S63x256_S131072x256_1_0_0_1_n_n rfl (val_main_v0 (F := Ideal) x0) x1 x2 _ _ _ n
    (ptsRow x0 n) (wOfArgs x1 x2 x3 x4 x5 x6 x7 x8 x9 x10 x11 x12 x13 x14 x15 x16 x17 x18 x19 x20 x21 x22 x23 x24).W0 (wOfArgs x1 x2 x3 x4 x5 x6 x7 x8 x9 x10 x11 x12 x13 x14 x15 x16 x17 x18 x19 x20 x21 x22 x23 x24).b0 (pts_apply x0 n) (fun _ _ => rfl) (fun _ => rfl) j

theorem t1_apply (j : Fin 256) :
    val_main_v11 (F := Ideal) x0 x1 x2 x3 x4 (ix2 n j) = t1 x0 x1 x2 x3 x4 x5 x6 x7 x8 x9 x10 x11 x12 x13 x14 x15 x16 x17 x18 x19 x20 x21 x22 x23 x24 n j := by
  unfold val_main_v11 val_main_v10 val_main_v7 val_main_v9 val_main_v8 val_main_call1_v0 val_main_call1_cst
  exact LibRefLayer.layer_apply dot_S131072x256_S256x256_S131072x256_1_0_0_1_n_n rfl (val_main_v6 (F := Ideal) x0 x1 x2) x3 x4 _ _ _ n
    (t0 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W1 (wOfArgs x1 x2 x3 x4 x5 x6 x7 x8 x9 x10 x11 x12 x13 x14 x15 x16 x17 x18 x19 x20 x21 x22 x23 x24).b1 (t0_apply x0 x1 x2 x3 x4 x5 x6 x7 x8 x9 x10 x11 x12 x13 x14 x15 x16 x17 x18 x19 x20 x21 x22 x23 x24 n) (fun _ _ => rfl) (fun _ => rfl) j

theorem t2_apply (j : Fin 256) :
    val_main_v16 (F := Ideal) x0 x1 x2 x3 x4 x5 x6 (ix2 n j) = t2 x0 x1 x2 x3 x4 x5 x6 x7 x8 x9 x10 x11 x12 x13 x14 x15 x16 x17 x18 x19 x20 x21 x22 x23 x24 n j := by
  unfold val_main_v16 val_main_v15 val_main_v12 val_main_v14 val_main_v13 val_main_call2_v0 val_main_call2_cst
  exact LibRefLayer.layer_apply dot_S131072x256_S256x256_S131072x256_1_0_0_1_n_n rfl (val_main_v11 (F := Ideal) x0 x1 x2 x3 x4) x5 x6 _ _ _ n
    (t1 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W2 (wOfArgs x1 x2 x3 x4 x5 x6 x7 x8 x9 x10 x11 x12 x13 x14 x15 x16 x17 x18 x19 x20 x21 x22 x23 x24).b2 (t1_apply x0 x1 x2 x3 x4 x5 x6 x7 x8 x9 x10 x11 x12 x13 x14 x15 x16 x17 x18 x19 x20 x21 x22 x23 x24 n) (fun _ _ => rfl) (fun _ => rfl) j

theorem t3_apply (j : Fin 256) :
    val_main_v21 (F := Ideal) x0 x1 x2 x3 x4 x5 x6 x7 x8 (ix2 n j) = t3 x0 x1 x2 x3 x4 x5 x6 x7 x8 x9 x10 x11 x12 x13 x14 x15 x16 x17 x18 x19 x20 x21 x22 x23 x24 n j := by
  unfold val_main_v21 val_main_v20 val_main_v17 val_main_v19 val_main_v18 val_main_call3_v0 val_main_call3_cst
  exact LibRefLayer.layer_apply dot_S131072x256_S256x256_S131072x256_1_0_0_1_n_n rfl (val_main_v16 (F := Ideal) x0 x1 x2 x3 x4 x5 x6) x7 x8 _ _ _ n
    (t2 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W3 (wOfArgs x1 x2 x3 x4 x5 x6 x7 x8 x9 x10 x11 x12 x13 x14 x15 x16 x17 x18 x19 x20 x21 x22 x23 x24).b3 (t2_apply x0 x1 x2 x3 x4 x5 x6 x7 x8 x9 x10 x11 x12 x13 x14 x15 x16 x17 x18 x19 x20 x21 x22 x23 x24 n) (fun _ _ => rfl) (fun _ => rfl) j

theorem t4_apply (j : Fin 256) :
    val_main_v26 (F := Ideal) x0 x1 x2 x3 x4 x5 x6 x7 x8 x9 x10 (ix2 n j) = t4 x0 x1 x2 x3 x4 x5 x6 x7 x8 x9 x10 x11 x12 x13 x14 x15 x16 x17 x18 x19 x20 x21 x22 x23 x24 n j := by
  unfold val_main_v26 val_main_v25 val_main_v22 val_main_v24 val_main_v23 val_main_call4_v0 val_main_call4_cst
  exact LibRefLayer.layer_apply dot_S131072x256_S256x256_S131072x256_1_0_0_1_n_n rfl (val_main_v21 (F := Ideal) x0 x1 x2 x3 x4 x5 x6 x7 x8) x9 x10 _ _ _ n
    (t3 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W4 (wOfArgs x1 x2 x3 x4 x5 x6 x7 x8 x9 x10 x11 x12 x13 x14 x15 x16 x17 x18 x19 x20 x21 x22 x23 x24).b4 (t3_apply x0 x1 x2 x3 x4 x5 x6 x7 x8 x9 x10 x11 x12 x13 x14 x15 x16 x17 x18 x19 x20 x21 x22 x23 x24 n) (fun _ _ => rfl) (fun _ => rfl) j

theorem t5_apply (j : Fin 256) :
    val_main_v32 (F := Ideal) x0 x1 x2 x3 x4 x5 x6 x7 x8 x9 x10 x11 x12 (ix2 n j) = t5 x0 x1 x2 x3 x4 x5 x6 x7 x8 x9 x10 x11 x12 x13 x14 x15 x16 x17 x18 x19 x20 x21 x22 x23 x24 n j := by
  unfold val_main_v32 val_main_v31 val_main_v28 val_main_v27 val_main_v30 val_main_v29 val_main_call5_v0 val_main_call5_cst
  refine LibRefLayer.relu_apply _ _ n _ (fun j' => ?_) j
  exact LibRefLayer.affine_cat_apply (A := 63) (B := 256) rfl dot_S131072x319_S319x256_S131072x256_1_0_0_1_n_n rfl (val_main_v0 (F := Ideal) x0)
    (val_main_v26 (F := Ideal) x0 x1 x2 x3 x4 x5 x6 x7 x8 x9 x10) _ x11 x12 _ _ n (ptsRow x0 n) (t4 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W5 (wOfArgs x1 x2 x3 x4 x5 x6 x7 x8 x9 x10 x11 x12 x13 x14 x15 x16 x17 x18 x19 x20 x21 x22 x23 x24).b5
    (pts_apply x0 n) (t4_apply x0 x1 x2 x3 x4 x5 x6 x7 x8 x9 x10 x11 x12 x13 x14 x15 x16 x17 x18 x19 x20 x21 x22 x23 x24 n) (fun _ _ => rfl) (fun _ => rfl) j'

theorem t6_apply (j : Fin 256) :
    val_main_v37 (F := Ideal) x0 x1 x2 x3 x4 x5 x6 x7 x8 x9 x10 x11 x12 x13 x14 (ix2 n j) = t6 x0 x1 x2 x3 x4 x5 x6 x7 x8 x9 x10 x11 x12 x13 x14 x15 x16 x17 x18 x19 x20 x21 x22 x23 x24 n j := by
  unfold val_main_v37 val_main_v36 val_main_v33 val_main_v35 val_main_v34 val_main_call6_v0 val_main_call6_cst
  exact LibRefLayer.layer_apply dot_S131072x256_S256x256_S131072x256_1_0_0_1_n_n rfl (val_main_v32 (F := Ideal) x0 x1 x2 x3 x4 x5 x6 x7 x8 x9 x10 x11 x12) x13 x14 _ _ _ n
    (t5 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W6 (wOfArgs x1 x2 x3 x4 x5 x6 x7 x8 x9 x10 x11 x12 x13 x14 x15 x16 x17 x18 x19 x20 x21 x22 x23 x24).b6 (t5_apply x0 x1 x2 x3 x4 x5 x6 x7 x8 x9 x10 x11 x12 x13 x14 x15 x16 x17 x18 x19 x20 x21 x22 x23 x24 n) (fun _ _ => rfl) (fun _ => rfl) j

theorem t7_apply (j : Fin 256) :
    val_main_v42 (F := Ideal) x0 x1 x2 x3 x4 x5 x6 x7 x8 x9 x10 x11 x12 x13 x14 x15 x16 (ix2 n j) = t7 x0 x1 x2 x3 x4 x5 x6 x7 x8 x9 x10 x11 x12 x13 x14 x15 x16 x17 x18 x19 x20 x21 x22 x23 x24 n j := by
  unfold val_main_v42 val_main_v41 val_main_v38 val_main_v40 val_main_v39 val_main_call7_v0 val_main_call7_cst
  exact LibRefLayer.layer_apply dot_S131072x256_S256x256_S131072x256_1_0_0_1_n_n rfl (val_main_v37 (F := Ideal) x0 x1 x2 x3 x4 x5 x6 x7 x8 x9 x10 x11 x12 x13 x14) x15 x16 _ _ _ n
    (t6 x0 x1 x2 x3 x4 x5 x6 x7 x8 x9 x10 x11 x12 x13 x14 x15 x16 x17 x18 x19 x20 x21 x22 x23 x24 n) (wOfArgs x1 x2 x3 x4 x5 x6 x7 x8 x9 x10 x11 x12 x13 x14 x15 x16 x17 x18 x19 x20 x21 x22 x23 x24).W7 (wOfArgs x1 x2 x3 x4 x5 x6 x7 x8 x9 x10 x11 x12 x13 x14 x15 x16 x17 x18 x19 x20 x21 x22 x23 x24).b7 (t6_apply x0 x1 x2 x3 x4 x5 x6 x7 x8 x9 x10 x11 x12 x13 x14 x15 x16 x17 x18 x19 x20 x21 x22 x23 x24 n) (fun _ _ => rfl) (fun _ => rfl) j

/-- The density column at row n. -/
theorem alpha_apply (u : Fin 1) :
    val_main_v46 (F := Ideal) x0 x1 x2 x3 x4 x5 x6 x7 x8 x9 x10 x11 x12 x13 x14 x15 x16 x19 x20 (ix2 n u) = alpha (wOfArgs x1 x2 x3 x4 x5 x6 x7 x8 x9 x10 x11 x12 x13 x14 x15 x16 x17 x18 x19 x20 x21 x22 x23 x24) (ptsRow x0 n) := by
  unfold val_main_v46 val_main_v43 val_main_v45 val_main_v44
  have hu : u = 0 := Subsingleton.elim _ _
  subst hu
  exact LibRefLayer.affine_apply dot_S131072x256_S256x1_S131072x1_1_0_0_1_n_n rfl (val_main_v42 (F := Ideal) x0 x1 x2 x3 x4 x5 x6 x7 x8 x9 x10 x11 x12 x13 x14 x15 x16) x19 x20 _ _ n
    (trunk7 (wOfArgs x1 x2 x3 x4 x5 x6 x7 x8 x9 x10 x11 x12 x13 x14 x15 x16 x17 x18 x19 x20 x21 x22 x23 x24) (ptsRow x0 n)) (wOfArgs x1 x2 x3 x4 x5 x6 x7 x8 x9 x10 x11 x12 x13 x14 x15 x16 x17 x18 x19 x20 x21 x22 x23 x24).Wa (wOfArgs x1 x2 x3 x4 x5 x6 x7 x8 x9 x10 x11 x12 x13 x14 x15 x16 x17 x18 x19 x20 x21 x22 x23 x24).ba (t7_apply x0 x1 x2 x3 x4 x5 x6 x7 x8 x9 x10 x11 x12 x13 x14 x15 x16 x17 x18 x19 x20 x21 x22 x23 x24 n) (fun _ _ => rfl) (fun _ => rfl) 0

/-- The feature at row n. -/
theorem feature_apply (j : Fin 256) :
    val_main_v50 (F := Ideal) x0 x1 x2 x3 x4 x5 x6 x7 x8 x9 x10 x11 x12 x13 x14 x15 x16 x17 x18 (ix2 n j) = feature (wOfArgs x1 x2 x3 x4 x5 x6 x7 x8 x9 x10 x11 x12 x13 x14 x15 x16 x17 x18 x19 x20 x21 x22 x23 x24) (ptsRow x0 n) j := by
  unfold val_main_v50 val_main_v47 val_main_v49 val_main_v48
  exact LibRefLayer.affine_apply dot_S131072x256_S256x256_S131072x256_1_0_0_1_n_n rfl (val_main_v42 (F := Ideal) x0 x1 x2 x3 x4 x5 x6 x7 x8 x9 x10 x11 x12 x13 x14 x15 x16) x17 x18 _ _ n
    (trunk7 (wOfArgs x1 x2 x3 x4 x5 x6 x7 x8 x9 x10 x11 x12 x13 x14 x15 x16 x17 x18 x19 x20 x21 x22 x23 x24) (ptsRow x0 n)) (wOfArgs x1 x2 x3 x4 x5 x6 x7 x8 x9 x10 x11 x12 x13 x14 x15 x16 x17 x18 x19 x20 x21 x22 x23 x24).Wf (wOfArgs x1 x2 x3 x4 x5 x6 x7 x8 x9 x10 x11 x12 x13 x14 x15 x16 x17 x18 x19 x20 x21 x22 x23 x24).bf (t7_apply x0 x1 x2 x3 x4 x5 x6 x7 x8 x9 x10 x11 x12 x13 x14 x15 x16 x17 x18 x19 x20 x21 x22 x23 x24 n) (fun _ _ => rfl) (fun _ => rfl) j

/-- The colour branch's hidden vector at row n. -/
theorem hidden_apply (j : Fin 128) :
    val_main_v56 (F := Ideal) x0 x1 x2 x3 x4 x5 x6 x7 x8 x9 x10 x11 x12 x13 x14 x15 x16 x17 x18 x21 x22 (ix2 n j) = hidden (wOfArgs x1 x2 x3 x4 x5 x6 x7 x8 x9 x10 x11 x12 x13 x14 x15 x16 x17 x18 x19 x20 x21 x22 x23 x24) (ptsRow x0 n) (viewsRow x0 n) j := by
  unfold val_main_v56 val_main_v55 val_main_v52 val_main_v51 val_main_v54 val_main_v53 val_main_call8_v0 val_main_call8_cst
  refine LibRefLayer.relu_apply _ _ n _ (fun j' => ?_) j
  exact LibRefLayer.affine_cat_apply (A := 256) (B := 63) rfl dot_S131072x319_S319x128_S131072x128_1_0_0_1_n_n rfl (val_main_v50 (F := Ideal) x0 x1 x2 x3 x4 x5 x6 x7 x8 x9 x10 x11 x12 x13 x14 x15 x16 x17 x18)
    (val_main_v1 (F := Ideal) x0) _ x21 x22 _ _ n (feature (wOfArgs x1 x2 x3 x4 x5 x6 x7 x8 x9 x10 x11 x12 x13 x14 x15 x16 x17 x18 x19 x20 x21 x22 x23 x24) (ptsRow x0 n)) (viewsRow x0 n) (wOfArgs x1 x2 x3 x4 x5 x6 x7 x8 x9 x10 x11 x12 x13 x14 x15 x16 x17 x18 x19 x20 x21 x22 x23 x24).Wv (wOfArgs x1 x2 x3 x4 x5 x6 x7 x8 x9 x10 x11 x12 x13 x14 x15 x16 x17 x18 x19 x20 x21 x22 x23 x24).bv
    (feature_apply x0 x1 x2 x3 x4 x5 x6 x7 x8 x9 x10 x11 x12 x13 x14 x15 x16 x17 x18 x19 x20 x21 x22 x23 x24 n) (views_apply x0 n) (fun _ _ => rfl) (fun _ => rfl) j'

/-- The colour columns at row n. -/
theorem rgb_apply (g : Fin 3) :
    val_main_v60 (F := Ideal) x0 x1 x2 x3 x4 x5 x6 x7 x8 x9 x10 x11 x12 x13 x14 x15 x16 x17 x18 x21 x22 x23 x24 (ix2 n g) = rgb (wOfArgs x1 x2 x3 x4 x5 x6 x7 x8 x9 x10 x11 x12 x13 x14 x15 x16 x17 x18 x19 x20 x21 x22 x23 x24) (ptsRow x0 n) (viewsRow x0 n) g := by
  unfold val_main_v60 val_main_v57 val_main_v59 val_main_v58
  exact LibRefLayer.affine_apply dot_S131072x128_S128x3_S131072x3_1_0_0_1_n_n rfl (val_main_v56 (F := Ideal) x0 x1 x2 x3 x4 x5 x6 x7 x8 x9 x10 x11 x12 x13 x14 x15 x16 x17 x18 x21 x22) x23 x24 _ _ n
    (hidden (wOfArgs x1 x2 x3 x4 x5 x6 x7 x8 x9 x10 x11 x12 x13 x14 x15 x16 x17 x18 x19 x20 x21 x22 x23 x24) (ptsRow x0 n) (viewsRow x0 n)) (wOfArgs x1 x2 x3 x4 x5 x6 x7 x8 x9 x10 x11 x12 x13 x14 x15 x16 x17 x18 x19 x20 x21 x22 x23 x24).Wr (wOfArgs x1 x2 x3 x4 x5 x6 x7 x8 x9 x10 x11 x12 x13 x14 x15 x16 x17 x18 x19 x20 x21 x22 x23 x24).br (hidden_apply x0 x1 x2 x3 x4 x5 x6 x7 x8 x9 x10 x11 x12 x13 x14 x15 x16 x17 x18 x19 x20 x21 x22 x23 x24 n) (fun _ _ => rfl)
    (fun _ => rfl) g

/-- The result at row n, column g. -/
theorem out_apply (g : Fin 4) :
    val_main_v61 (F := Ideal) x0 x1 x2 x3 x4 x5 x6 x7 x8 x9 x10 x11 x12 x13 x14 x15 x16 x17 x18 x19 x20 x21 x22 x23 x24 (ix2 n g) = out (wOfArgs x1 x2 x3 x4 x5 x6 x7 x8 x9 x10 x11 x12 x13 x14 x15 x16 x17 x18 x19 x20 x21 x22 x23 x24) (ptsRow x0 n) (viewsRow x0 n) g := by
  unfold val_main_v61
  by_cases hg : g.val < 3
  · refine (LibConcat2.cols_left _ _ _ n g ⟨g.val, hg⟩ rfl).trans ?_
    rw [rgb_apply]
    unfold out
    rw [dif_pos hg]
  · have hg3 : g.val = 3 := by have := g.isLt; omega
    refine (LibConcat2.cols_right _ _ _ n g (0 : Fin 1) (by rw [hg3]; rfl)).trans ?_
    rw [alpha_apply]
    unfold out
    rw [dif_neg hg]

/-- The reference's whole result array is the specification's. -/
theorem result_eq : val_main_v61 (F := Ideal) x0 x1 x2 x3 x4 x5 x6 x7 x8 x9 x10 x11 x12 x13 x14 x15 x16 x17 x18 x19 x20 x21 x22 x23 x24 = G x0 x1 x2 x3 x4 x5 x6 x7 x8 x9 x10 x11 x12 x13 x14 x15 x16 x17 x18 x19 x20 x21 x22 x23 x24 :=
  funext fun i => by
    obtain ⟨n, g, rfl⟩ : ∃ (n : Fin 131072) (g : Fin 4), i = ix2 n g := ⟨i 0, i 1, eq_ix2 i⟩
    exact out_apply x0 x1 x2 x3 x4 x5 x6 x7 x8 x9 x10 x11 x12 x13 x14 x15 x16 x17 x18 x19 x20 x21 x22 x23 x24 n g

end Cert.RefValue

end
-- ==== Proof.lean ====
/-
  The certificate of the eight-layer network with one skip connection and two heads, evaluated row by row.

  The kernel and the reference compute, for every row of the input, the same function of that row and of the
  parameters (`Spec.out`, on the extended reals). The kernel works on blocks of 4096 rows with all weights resident:
  its matrix products into a zero accumulator are the textbook sums, the narrowing of operands to sixteen bits is the
  identity on the extended reals, the two products it adds where the reference joins two arrays before one product are
  that product with its sum cut in two, and its heads summed along the lanes are the reference's products with a
  one- or three-column weight. Only the associativity and commutativity of addition are used, so the finiteness of the
  inputs is never opened.

  The frames of the two kernel programs are the generated frame certificates, read from the copies KernelFrameP and
  KernelIdealFrameP (their headers state the four lines in which each differs from the generated text); the
  reference's frame is its generated run with the result dropped; the idealization rewrote no operation, so the
  preservation claim is `True`.
-/
import proofs.«177188_j14285061226818_2_alg».proof.Defs
import proofs.«177188_j14285061226818_2_alg».proof.Proof.Gen.Kernel
import proofs.«177188_j14285061226818_2_alg».proof.Proof.Gen.KernelIdeal
import proofs.«177188_j14285061226818_2_alg».proof.Proof.Gen.ReferenceIdeal
import proofs.«177188_j14285061226818_2_alg».proof.Proof.Gen.Pre_finite_inputs
import proofs.«177188_j14285061226818_2_alg».proof.Proof.Gen.ReferenceIdeal.Run
import proofs.«177188_j14285061226818_2_alg».proof.Proof.Gen.ReferenceIdeal.Read
import proofs.«177188_j14285061226818_2_alg».proof.Proof.KernelFrameP
import proofs.«177188_j14285061226818_2_alg».proof.Proof.KernelIdealFrameP
import proofs.«177188_j14285061226818_2_alg».proof.Proof.KerValue
import proofs.«177188_j14285061226818_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's array of the (agreeing) argument arrays. -/
theorem algebraic : Cert.algebraic_KernelIdeal_ReferenceIdeal := by
  intro m ρ m' ρ' _ hagree
  refine ⟨fun c => Cert.KerValue.GM m c, Cert.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.RefValue.result_eq]
  obtain ⟨a0, a1, a2, a3, a4, a5, a6, a7, a8, a9, a10, a11, a12, a13, a14, a15, a16, a17, a18, a19, a20, a21, a22, a23, a24⟩ := hagree c
  rw [a0, a1, a2, a3, a4, a5, a6, a7, a8, a9, a10, a11, a12, a13, a14, a15, a16, a17, a18, a19, a20, a21, a22, a23, a24]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
